-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8192x256 : Shape := ⟨3, ![32, 8192, 256]⟩
abbrev S256x1 : Shape := ⟨2, ![256, 1]⟩
abbrev S1 : Shape := ⟨1, ![1]⟩
abbrev S_ : Shape := ⟨0, ![]⟩

class Facts : Prop where
  bcast_S_S32x8192x256 : S_.BroadcastsInDim S32x8192x256 (![] : Fin 0 → Fin S32x8192x256.rank)
  reducesTo_S32x8192x256_S_d0_1_2 : S32x8192x256.ReducesTo [0, 1, 2] S_
  h_S_ : 0 < S_.numel
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S32x8192x256 .f32) (main_arg1 : FVec F S256x1 .f32) (main_arg2 : FVec F S1 .f32) : IVec S_ 1 :=
  let main_v0 : FVec F S32x8192x256 .f32 := Host.absf main_arg0
  let main_cst : FVec F S_ .f32 := constant S_ .f32 0x7F800000#32
  let main_v1 : FVec F S32x8192x256 .f32 := broadcastInDim S32x8192x256 ![] bcast_S_S32x8192x256 main_cst
  let main_v2 : IVec S32x8192x256 1 := cmpf .olt main_v0 main_v1
  let main_c : IVec S_ 1 := constantI S_ 1 1#1
  let main_v3 : IVec S_ 1 := (fun x v => Host.reduce IntOp.andi x v reducesTo_S32x8192x256_S_d0_1_2 h_S_) main_v2 main_c
  let main_v4 : FVec F S256x1 .f32 := Host.absf main_arg1
  let main_cst_0 : FVec F S_ .f32 := constant S_ .f32 0x7F800000#32
  let main_v5 : FVec F S256x1 .f32 := broadcastInDim S256x1 ![] bcast_S_S256x1 main_cst_0
  let main_v6 : IVec S256x1 1 := cmpf .olt main_v4 main_v5
  let main_c_1 : IVec S_ 1 := constantI S_ 1 1#1
  let main_v7 : IVec S_ 1 := (fun x v => Host.reduce IntOp.andi x v reducesTo_S256x1_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S32x8192x256 : Shape := ⟨3, ![32, 8192, 256]⟩
abbrev S256x1 : Shape := ⟨2, ![256, 1]⟩
abbrev S1 : Shape := ⟨1, ![1]⟩
abbrev S32x1x256 : Shape := ⟨3, ![32, 1, 256]⟩
abbrev S32x256 : Shape := ⟨2, ![32, 256]⟩
abbrev S2x8192x256 : Shape := ⟨3, ![2, 8192, 256]⟩
abbrev S2x1x256 : Shape := ⟨3, ![2, 1, 256]⟩
abbrev S1x1 : Shape := ⟨2, ![1, 1]⟩
abbrev S1x256 : Shape := ⟨2, ![1, 256]⟩
abbrev S1x8192x256 : Shape := ⟨3, ![1, 8192, 256]⟩
abbrev S8192x256 : Shape := ⟨2, ![8192, 256]⟩
abbrev S1024x256 : Shape := ⟨2, ![1024, 256]⟩
abbrev S1024x1 : Shape := ⟨2, ![1024, 1]⟩
abbrev S256 : Shape := ⟨1, ![256]⟩
abbrev S1x1x256 : Shape := ⟨3, ![1, 1, 256]⟩

abbrev nBuf : Space → Nat
  | .hbm => 5
  | .vmem => 6
  | .smem => 0
  | _ => 0

abbrev bufTy : (tb : Table) → Fin (tcTables nBuf tb) → BufTy
  | .hbm, ⟨0, _⟩ => ⟨S32x8192x256, .f32⟩
  | .hbm, ⟨1, _⟩ => ⟨S256x1, .f32⟩
  | .hbm, ⟨2, _⟩ => ⟨S1, .f32⟩
  | .hbm, ⟨3, _⟩ => ⟨S32x1x256, .f32⟩
  | .hbm, ⟨4, _⟩ => ⟨S32x256, .f32⟩
  | .local _ .vmem, ⟨0, _⟩ => ⟨S2x8192x256, .f32⟩
  | .local _ .vmem, ⟨1, _⟩ => ⟨S2x8192x256, .f32⟩
  | .local _ .vmem, ⟨2, _⟩ => ⟨S256x1, .f32⟩
  | .local _ .vmem, ⟨3, _⟩ => ⟨S1, .f32⟩
  | .local _ .vmem, ⟨4, _⟩ => ⟨S2x1x256, .f32⟩
  | .local _ .vmem, ⟨5, _⟩ => ⟨S2x1x256, .f32⟩
  | _, _ => ⟨S32x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_4 : BitVec 32 := 0#32
  let c8_i32 : BitVec 32 := 8#32
  let v5 : BitVec 32 := Scalar.addi c0_i32_4 c8_i32
  let c1_i32 : BitVec 32 := 1#32
  ⟨c0_i32_4, v5, c1_i32⟩
def k0_mult1 (k0_t1 : Fin k0_t1_loop.trips) : BitVec 32 :=
  let c0_i32_4 : BitVec 32 := 0#32
  let c1_i32 : BitVec 32 := 1#32
  let arg5 : BitVec 32 := Scf.iv c0_i32_4 c1_i32 k0_t1
  let c1024_i32 : BitVec 32 := 1024#32
  let v22 : BitVec 32 := Scalar.muli arg5 c1024_i32
  v22
def k0_off1 (k0_t1 : Fin k0_t1_loop.trips) : Fin 2 → Nat :=
  let c0_i32_4 : BitVec 32 := 0#32
  let c1_i32 : BitVec 32 := 1#32
  let arg5 : BitVec 32 := Scf.iv c0_i32_4 c1_i32 k0_t1
  let c1024_i32 : BitVec 32 := 1024#32
  let v22 : BitVec 32 := Scalar.muli arg5 c1024_i32
  let v23 : BitVec 32 := v22
  let v26 : Index := Scalar.indexCast v23
  let c0_21 : Index := 0#32
  ![v26.toNat, 0]
@[reducible] def k0_t2_loop : Scf.Loop 32 :=
  let c0_i32_13 : BitVec 32 := 0#32
  let c8_i32_14 : BitVec 32 := 8#32
  let v15 : BitVec 32 := Scalar.addi c0_i32_13 c8_i32_14
  let c1_i32_15 : BitVec 32 := 1#32
  ⟨c0_i32_13, v15, c1_i32_15⟩
def k0_mult2 (k0_t2 : Fin k0_t2_loop.trips) : BitVec 32 :=
  let c0_i32_13 : BitVec 32 := 0#32
  let c1_i32_15 : BitVec 32 := 1#32
  let arg5 : BitVec 32 := Scf.iv c0_i32_13 c1_i32_15 k0_t2
  let c1024_i32 : BitVec 32 := 1024#32
  let v22 : BitVec 32 := Scalar.muli arg5 c1024_i32
  v22
def k0_off2 (k0_t2 : Fin k0_t2_loop.trips) : Fin 2 → Nat :=
  let c0_i32_13 : BitVec 32 := 0#32
  let c1_i32_15 : BitVec 32 := 1#32
  let arg5 : BitVec 32 := Scf.iv c0_i32_13 c1_i32_15 k0_t2
  let c1024_i32 : BitVec 32 := 1024#32
  let v22 : BitVec 32 := Scalar.muli arg5 c1024_i32
  let v23 : BitVec 32 := v22
  let v26 : Index := Scalar.indexCast v23
  let c0_21 : Index := 0#32
  ![v26.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S32x1x256_S32x256 : S32x1x256.ShapeCasts S32x256
  inb_S256x1_S256x1_0_0 : ∀ a, (![0, 0] : Fin 2 → Nat) a + S256x1.size a ≤ S256x1.size a
  h_S256x1 : 0 < S256x1.numel
  inb_S1_S1_0 : ∀ a, (![0] : Fin 1 → Nat) a + S1.size a ≤ S1.size a
  h_S1 : 0 < S1.numel
  inb_S2x8192x256_S1x8192x256_0_0_0 : ∀ a, (![0, 0, 0] : Fin 3 → Nat) a + S1x8192x256.size a ≤ S2x8192x256.size a
  squeezes_S1x8192x256_S8192x256 : S1x8192x256.Squeezes S8192x256
  h_S1024x256 : 0 < S1024x256.numel
  shapeCasts_S1_S1x1 : S1.ShapeCasts S1x1
  broadcasts_S1x1_S1024x1 : S1x1.Broadcasts S1024x1
  reduces_S1024x1_S1 : S1024x1.Reduces [0] S1
  broadcasts_S1x1_S1x256 : S1x1.Broadcasts S1x256
  broadcasts_S1024x1_S1024x256 : S1024x1.Broadcasts S1024x256
  reduces_S1024x256_S256 : S1024x256.Reduces [0] S256
  shapeCasts_S256_S1x256 : S256.ShapeCasts S1x256
  inb_S2x1x256_S1x1x256_0_0_0 : ∀ a, (![0, 0, 0] : Fin 3 → Nat) a + S1x1x256.size a ≤ S2x1x256.size a
  h_S1x1x256 : 0 < S1x1x256.numel
  shapeCasts_S1x1x256_S1x256 : S1x1x256.ShapeCasts S1x256
  shapeCasts_S1x256_S1x1x256 : S1x256.ShapeCasts S1x1x256
  inb_S2x8192x256_S1x8192x256_1_0_0 : ∀ a, (![1, 0, 0] : Fin 3 → Nat) a + S1x8192x256.size a ≤ S2x8192x256.size a
  inb_S2x1x256_S1x1x256_1_0_0 : ∀ a, (![1, 0, 0] : Fin 3 → Nat) a + S1x1x256.size a ≤ S2x1x256.size a
  dot_S1024x256_S256x1_S1024x1_1_0_0_1_n_n_wf : DotDims.WF S1024x256 S256x1 S1024x1 [1] [0] [0] [1] [] []
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1024x256.size a ≤ S8192x256.size a
  k0_t2_ok : k0_t2_loop.OK
  k0_mult2_dvd : ∀ k0_t2 : Fin k0_t2_loop.trips, 1024 ∣ (k0_mult2 k0_t2).toNat
  k0_off2_inb : ∀ k0_t2 : Fin k0_t2_loop.trips, ∀ a, (k0_off2 k0_t2) a + S1024x256.size a ≤ S8192x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x8192x256.size a ≤ S32x8192x256.size a
  hwx0_0 : ∀ i : grid0.Coords, EltTy.bits .f32 = 32 ∨ (Rect.block (s := S32x8192x256) S2x8192x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S256x1.size a
  hwx0_1 : ∀ i : grid0.Coords, EltTy.bits .f32 = 32 ∨ (Rect.block (s := S256x1) S256x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1.size a ≤ S1.size a
  hwx0_2 : ∀ i : grid0.Coords, EltTy.bits .f32 = 32 ∨ (Rect.block (s := S1) S1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x1x256.size a ≤ S32x1x256.size a
  hwx0_3 : ∀ i : grid0.Coords, EltTy.bits .f32 = 32 ∨ (Rect.block (s := S32x1x256) S2x1x256.size (cc0_transform_3 i) (hinb0_3 i)).WholeWords (EltTy.packing .f32)

variable [Facts₀]

def dot_S1024x256_S256x1_S1024x1_1_0_0_1_n_n : DotDims S1024x256 S256x1 S1024x1 where
  lhsContracting := [1]
  rhsContracting := [0]
  lhsNonContracting := [0]
  rhsNonContracting := [1]
  lhsBatch := []
  rhsBatch := []
  wf := dot_S1024x256_S256x1_S1024x1_1_0_0_1_n_n_wf

abbrev win0_0 : Pipeline.Window sig grid0 :=
  Pipeline.Window.ofSpec (Memref.whole main_arg0) S2x8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S2x1x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x8192x256 : Shape := ⟨3, ![32, 8192, 256]⟩
abbrev S256x1 : Shape := ⟨2, ![256, 1]⟩
abbrev S1 : Shape := ⟨1, ![1]⟩
abbrev S32x8192x1 : Shape := ⟨3, ![32, 8192, 1]⟩
abbrev S1x1x1 : Shape := ⟨3, ![1, 1, 1]⟩
abbrev S_ : Shape := ⟨0, ![]⟩
abbrev S32x1 : Shape := ⟨2, ![32, 1]⟩
abbrev S32x1x1 : Shape := ⟨3, ![32, 1, 1]⟩
abbrev S32x256 : Shape := ⟨2, ![32, 256]⟩

abbrev nBuf : Space → Nat
  | .hbm => 25
  | .vmem => 0
  | .smem => 0
  | _ => 0

abbrev bufTy : (tb : Table) → Fin (tcTables nBuf tb) → BufTy
  | .hbm, ⟨0, _⟩ => ⟨S32x8192x256, .f32⟩
  | .hbm, ⟨1, _⟩ => ⟨S256x1, .f32⟩
  | .hbm, ⟨2, _⟩ => ⟨S1, .f32⟩
  | .hbm, ⟨3, _⟩ => ⟨S32x8192x1, .f32⟩
  | .hbm, ⟨4, _⟩ => ⟨S1x1x1, .f32⟩
  | .hbm, ⟨5, _⟩ => ⟨S32x8192x1, .f32⟩
  | .hbm, ⟨6, _⟩ => ⟨S32x8192x1, .f32⟩
  | .hbm, ⟨7, _⟩ => ⟨S_, .f32⟩
  | .hbm, ⟨8, _⟩ => ⟨S32x1, .f32⟩
  | .hbm, ⟨9, _⟩ => ⟨S_, .f32⟩
  | .hbm, ⟨10, _⟩ => ⟨S32x1, .f32⟩
  | .hbm, ⟨11, _⟩ => ⟨S32x1, .f32⟩
  | .hbm, ⟨12, _⟩ => ⟨S32x1x1, .f32⟩
  | .hbm, ⟨13, _⟩ => ⟨S32x8192x1, .f32⟩
  | .hbm, ⟨14, _⟩ => ⟨S32x8192x1, .f32⟩
  | .hbm, ⟨15, _⟩ => ⟨S32x8192x1, .f32⟩
  | .hbm, ⟨16, _⟩ => ⟨S_, .f32⟩
  | .hbm, ⟨17, _⟩ => ⟨S32x1, .f32⟩
  | .hbm, ⟨18, _⟩ => ⟨S32x1x1, .f32⟩
  | .hbm, ⟨19, _⟩ => ⟨S32x8192x1, .f32⟩
  | .hbm, ⟨20, _⟩ => ⟨S32x8192x1, .f32⟩
  | .hbm, ⟨21, _⟩ => ⟨S32x8192x256, .f32⟩
  | .hbm, ⟨22, _⟩ => ⟨S32x8192x256, .f32⟩
  | .hbm, ⟨23, _⟩ => ⟨S_, .f32⟩
  | .hbm, ⟨24, _⟩ => ⟨S32x256, .f32⟩
  | _, _ => ⟨S32x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  bcast_S1_S1x1x1_2 : S1.BroadcastsInDim S1x1x1 (![2] : Fin 1 → Fin S1x1x1.rank)
  bcast_S1x1x1_S32x8192x1_0_1_2 : S1x1x1.BroadcastsInDim S32x8192x1 (![0, 1, 2] : Fin 3 → Fin S32x8192x1.rank)
  reducesTo_S32x8192x1_S32x1_d1 : S32x8192x1.ReducesTo [1] S32x1
  h_S_ : 0 < S_.numel
  bcast_S_S32x1 : S_.BroadcastsInDim S32x1 (![] : Fin 0 → Fin S32x1.rank)
  bcast_S32x1_S32x1x1_0_2 : S32x1.BroadcastsInDim S32x1x1 (![0, 2] : Fin 2 → Fin S32x1x1.rank)
  bcast_S32x1x1_S32x8192x1_0_1_2 : S32x1x1.BroadcastsInDim S32x8192x1 (![0, 1, 2] : Fin 3 → Fin S32x8192x1.rank)
  bcast_S32x8192x1_S32x8192x256_0_1_2 : S32x8192x1.BroadcastsInDim S32x8192x256 (![0, 1, 2] : Fin 3 → Fin S32x8192x256.rank)
  reducesTo_S32x8192x256_S32x256_d1 : S32x8192x256.ReducesTo [1] S32x256
  dot_S32x8192x256_S256x1_S32x8192x1_2_0_01_1_n_n_wf : DotDims.WF S32x8192x256 S256x1 S32x8192x1 [2] [0] [0, 1] [1] [] []

variable [Facts₀]

def dot_S32x8192x256_S256x1_S32x8192x1_2_0_01_1_n_n : DotDims S32x8192x256 S256x1 S32x8192x1 where
  lhsContracting := [2]
  rhsContracting := [0]
  lhsNonContracting := [0, 1]
  rhsNonContracting := [1]
  lhsBatch := []
  rhsBatch := []
  wf := dot_S32x8192x256_S256x1_S32x8192x1_2_0_01_1_n_n_wf

class Facts : Prop extends Facts₀ where

variable [Facts]
-- ==== Proof.PoolBodyBits.lean ====
/-
  The body of the pooling kernel of the kernel program as printed at one grid point.

  A grid point `t` (of 16) holds two graphs. For each of them the body walks the graph's 8192 node rows in eight
  chunks of 1024, carrying a running maximum, a running sum of exponentials and a running weighted row sum, and stores
  the weighted row sum divided by the sum of exponentials into the graph's row of the output block. Nothing but the
  output block is written: the three input blocks are read and handed back as they were.

  Stated here: what the body reads (the weight column, the bias, each chunk of each graph), the running triple of each
  graph as a recursion over the chunks in the body's own arithmetic, and the run of the body, whose two stores leave
  two pieces in the output block: the quotient for each graph, computed from its triple after the eighth chunk.
-/
import proofs.«168193_j54571854463410_2_alg».proof.Proof.Gen.Kernel.Launch
import proofs.«168193_j54571854463410_2_alg».proof.Proof.Gen.Kernel.Skeleton
import proofs.«168193_j54571854463410_2_alg».proof.Proof.Gen.Kernel.Loops
import proofs.«168193_j54571854463410_2_alg».proof.Proof.Gen.Kernel.Points
import proofs.«168193_j54571854463410_2_alg».proof.Proof.Gen.Kernel.Frame
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers the body is called on -/

/-- One buffer of the output window, through which the output block's contents are stated. -/
abbrev outView : View sig .tc .vmem S2x1x256 .f32 := (Memref.whole cc0_stg3_0 : Memref sig .tc .vmem S2x1x256 .f32).view

/-- Each window's current buffer at point `t`, and that it is a whole buffer. -/
abbrev bufX (t : Fin cfg0.N) : Memref sig .tc .vmem S2x8192x256 .f32 := win0_0.stage (cfg0.slots t 0)
abbrev bufX_whole (t : Fin cfg0.N) : (bufX t).IsWhole := hstage0_0 ((cfg0.slots t 0).cast nbuf0_0)
abbrev bufW (t : Fin cfg0.N) : Memref sig .tc .vmem S256x1 .f32 := win0_1.stage (cfg0.slots t 1)
abbrev bufW_whole (t : Fin cfg0.N) : (bufW t).IsWhole := hstage0_1 ((cfg0.slots t 1).cast nbuf0_1)
abbrev bufB (t : Fin cfg0.N) : Memref sig .tc .vmem S1 .f32 := win0_2.stage (cfg0.slots t 2)
abbrev bufB_whole (t : Fin cfg0.N) : (bufB t).IsWhole := hstage0_2 ((cfg0.slots t 2).cast nbuf0_2)
abbrev bufO (t : Fin cfg0.N) : Memref sig .tc .vmem S2x1x256 .f32 := win0_3.stage (cfg0.slots t 3)
abbrev bufO_whole (t : Fin cfg0.N) : (bufO t).IsWhole := hstage0_3 ((cfg0.slots t 3).cast nbuf0_3)

/-! ## What the body reads -/

/-- The weight column and the bias as the body loads them: the whole buffer read through its whole rectangle. -/
def loadedW (arg2 : Memref sig .tc .vmem S256x1 .f32) (harg2 : arg2.IsWhole) (w : Vec F S256x1 .f32) : Vec F S256x1 .f32 :=
  View.readAt (Elt F) arg2.view (Rect.unit (s := S256x1) ![0, 0] S256x1.size inb_S256x1_S256x1_0_0).toLoadRect (harg2.unread w)
def loadedB (arg3 : Memref sig .tc .vmem S1 .f32) (harg3 : arg3.IsWhole) (b : Vec F S1 .f32) : Vec F S1 .f32 :=
  View.readAt (Elt F) arg3.view (Rect.unit (s := S1) ![0] S1.size inb_S1_S1_0).toLoadRect (harg3.unread b)

/-- Chunk `k` of the first graph of the node block: rows `1024 k … 1024 k + 1023` of the block's slab 0. -/
def chunkA (arg1 : Memref sig .tc .vmem S2x8192x256 .f32) (harg1 : arg1.IsWhole) (x : Vec F S2x8192x256 .f32)
    (k : Fin k0_t1_loop.trips) : Vec F S1024x256 .f32 :=
  View.readAt (Elt F)
    ((arg1.slice (Rect.unit (s := S2x8192x256) ![0, 0, 0] S1x8192x256.size inb_S2x8192x256_S1x8192x256_0_0_0) (fun _ => rfl)).squeeze
      S8192x256 squeezes_S1x8192x256_S8192x256).view
    (Rect.unit (s := S8192x256) (k0_off1 k) S1024x256.size (k0_off1_inb k)).toLoadRect (harg1.unread x)

/-- Chunk `k` of the second graph: the same rows of slab 1. -/
def chunkB (arg1 : Memref sig .tc .vmem S2x8192x256 .f32) (harg1 : arg1.IsWhole) (x : Vec F S2x8192x256 .f32)
    (k : Fin k0_t2_loop.trips) : Vec F S1024x256 .f32 :=
  View.readAt (Elt F)
    ((arg1.slice (Rect.unit (s := S2x8192x256) ![1, 0, 0] S1x8192x256.size inb_S2x8192x256_S1x8192x256_1_0_0) (fun _ => rfl)).squeeze
      S8192x256 squeezes_S1x8192x256_S8192x256).view
    (Rect.unit (s := S8192x256) (k0_off2 k) S1024x256.size (k0_off2_inb k)).toLoadRect (harg1.unread x)

/-! ## The running triple of each graph, chunk by chunk -/

/-- The triple a chunk loop carries: running maximum, running sum of exponentials, running weighted row sum. -/
abbrev Carried (F : FTy → Type) := FVec F S1x1 .f32 × FVec F S1x1 .f32 × FVec F S1x256 .f32

/-- The first graph's triple before chunk `k`: from (−∞, 0, 0), each chunk taken in by the body's own arithmetic. -/
def carriedA (v0 : Vec F S256x1 .f32) (v1 : Vec F S1 .f32) (ch : Fin k0_t1_loop.trips → Vec F S1024x256 .f32) : ℕ → Carried F
  | 0 => (k0_pay1, k0_pay2, k0_pay3)
  | k + 1 => if h : k < k0_t1_loop.trips then
      (k0_pay5 v0 v1 (carriedA v0 v1 ch k).1 (ch ⟨k, h⟩),
       k0_pay8 v0 v1 (carriedA v0 v1 ch k).1 (carriedA v0 v1 ch k).2.1 (ch ⟨k, h⟩),
       k0_pay9 v0 v1 (carriedA v0 v1 ch k).1 (carriedA v0 v1 ch k).2.2 (ch ⟨k, h⟩))
    else carriedA v0 v1 ch k

theorem carriedA_succ (v0 : Vec F S256x1 .f32) (v1 : Vec F S1 .f32) (ch : Fin k0_t1_loop.trips → Vec F S1024x256 .f32)
    (k : Fin k0_t1_loop.trips) :
    carriedA v0 v1 ch (k.val + 1) =
      (k0_pay5 v0 v1 (carriedA v0 v1 ch k.val).1 (ch k),
       k0_pay8 v0 v1 (carriedA v0 v1 ch k.val).1 (carriedA v0 v1 ch k.val).2.1 (ch k),
       k0_pay9 v0 v1 (carriedA v0 v1 ch k.val).1 (carriedA v0 v1 ch k.val).2.2 (ch k)) := by
  rw [carriedA.eq_2]; exact dif_pos k.isLt

/-- The second graph's triple before chunk `k`. -/
def carriedB (v0 : Vec F S256x1 .f32) (v1 : Vec F S1 .f32) (ch : Fin k0_t2_loop.trips → Vec F S1024x256 .f32) : ℕ → Carried F
  | 0 => (k0_pay11, k0_pay12, k0_pay13)
  | k + 1 => if h : k < k0_t2_loop.trips then
      (k0_pay15 v0 v1 (carriedB v0 v1 ch k).1 (ch ⟨k, h⟩),
       k0_pay18 v0 v1 (carriedB v0 v1 ch k).1 (carriedB v0 v1 ch k).2.1 (ch ⟨k, h⟩),
       k0_pay19 v0 v1 (carriedB v0 v1 ch k).1 (carriedB v0 v1 ch k).2.2 (ch ⟨k, h⟩))
    else carriedB v0 v1 ch k

theorem carriedB_succ (v0 : Vec F S256x1 .f32) (v1 : Vec F S1 .f32) (ch : Fin k0_t2_loop.trips → Vec F S1024x256 .f32)
    (k : Fin k0_t2_loop.trips) :
    carriedB v0 v1 ch (k.val + 1) =
      (k0_pay15 v0 v1 (carriedB v0 v1 ch k.val).1 (ch k),
       k0_pay18 v0 v1 (carriedB v0 v1 ch k.val).1 (carriedB v0 v1 ch k.val).2.1 (ch k),
       k0_pay19 v0 v1 (carriedB v0 v1 ch k.val).1 (carriedB v0 v1 ch k.val).2.2 (ch k)) := by
  rw [carriedB.eq_2]; exact dif_pos k.isLt

/-- A chunk loop's invariant: the node block is held whole at its contents, and the carried triple is the running
    triple before chunk `k`. -/
def loopInvA (c : Dev nD) (arg1 : Memref sig .tc .vmem S2x8192x256 .f32) (harg1 : arg1.IsWhole) (x : Vec F S2x8192x256 .f32)
    (v0 : Vec F S256x1 .f32) (v1 : Vec F S1 .f32) (k : ℕ) (acc : Carried F) : sProp 𝕄 :=
  iprop((arg1.view.loc (c : Thread nD τ) ↦[arg1.view.set]{fullShare} harg1.unread x)
    ∗ ⌜acc = carriedA v0 v1 (chunkA arg1 harg1 x) k⌝)
def loopInvB (c : Dev nD) (arg1 : Memref sig .tc .vmem S2x8192x256 .f32) (harg1 : arg1.IsWhole) (x : Vec F S2x8192x256 .f32)
    (v0 : Vec F S256x1 .f32) (v1 : Vec F S1 .f32) (k : ℕ) (acc : Carried F) : sProp 𝕄 :=
  iprop((arg1.view.loc (c : Thread nD τ) ↦[arg1.view.set]{fullShare} harg1.unread x)
    ∗ ⌜acc = carriedB v0 v1 (chunkB arg1 harg1 x) k⌝)

/-! ## The body's run -/

set_option maxHeartbeats 4000000 in
/-- The pieces the body's two stores leave in the output block, last store first, with the run that finds them: on
    whole buffers — the node block `x`, the weight column `w` and the bias `b` at their contents, the output block at
    anything — the body runs to its end holding the three inputs as they were and the output block with the pieces
    written. Each chunk loop is passed by its invariant over a symbolic chunk. -/
noncomputable def bodyRun (c : Dev nD) (i : grid0.Coords)
    (arg1 : Memref sig .tc .vmem S2x8192x256 .f32) (harg1 : arg1.IsWhole)
    (arg2 : Memref sig .tc .vmem S256x1 .f32) (harg2 : arg2.IsWhole)
    (arg3 : Memref sig .tc .vmem S1 .f32) (harg3 : arg3.IsWhole)
    (arg4 : Memref sig .tc .vmem S2x1x256 .f32) (harg4 : arg4.IsWhole)
    (x : Vec F S2x8192x256 .f32) (w : Vec F S256x1 .f32) (b : Vec F S1 .f32) :
    { L : List (View.Piece (Elt F) S2x1x256 .f32) //
      ∀ (E : Set ℕ) (K : PUnit → sProp 𝕄),
        iprop(owns (c : Thread nD τ) arg1 fullShare x ∗ owns (c : Thread nD τ) arg2 fullShare w ∗ owns (c : Thread nD τ) arg3 fullShare b
            ∗ (∃ d, owns (c : Thread nD τ) arg4 fullShare d)
            ∗ (iprop(owns (c : Thread nD τ) arg1 fullShare x ∗ owns (c : Thread nD τ) arg2 fullShare w ∗ owns (c : Thread nD τ) arg3 fullShare b
                ∗ (∃ f, arg4.view.loc (c : Thread nD τ) ↦[arg4.view.set]{fullShare} arg4.view.writes (Elt F) f L)) -∗ K ⟨⟩))
          ⊢ wp frame (wpE (defs₀ (F := F)) Variants.none c none) E (cc0__pool_kernel i arg1 harg1 arg2 harg2 arg3 harg3 arg4 harg4) K } := by
  refine ⟨?_, fun E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_for (loopInvA c arg1 harg1 x (loadedW arg2 harg2 w) (loadedB arg3 harg3 b)) $$ [H0]
    case region =>
      intro k acc; unfold loopInvA; iintro ⟨H0, %hacc⟩
      subst hacc
      sl_exec
      sl_step
      isplitl [H0]; · iexact H0
      ipureintro; rw [carriedA_succ]; rfl
    · unfold loopInvA; isplitl [H0]; · iexact H0
      ipureintro; rfl
    iintro %accA HI
    unfold loopInvA; icases HI with ⟨H0, %haccA⟩
    subst haccA
    sl_exec
    sl_for (loopInvB c arg1 harg1 x (loadedW arg2 harg2 w) (loadedB arg3 harg3 b)) $$ [H0]
    case region =>
      intro k acc; unfold loopInvB; iintro ⟨H0, %hacc⟩
      subst hacc
      sl_exec
      sl_step
      isplitl [H0]; · iexact H0
      ipureintro; rw [carriedB_succ]; rfl
    · unfold loopInvB; isplitl [H0]; · iexact H0
      ipureintro; rfl
    iintro %accB HI
    unfold loopInvB; icases HI with ⟨H0, %haccB⟩
    subst haccB
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.Kernel.Pool

end
-- ==== Proof.PoolLaunchBits.lean ====
/-
  The launch of the pooling kernel of the kernel program as printed: the contents of every window's buffer point by point, the body's
  obligation at a point, and the run of the whole program around the region.

  The grid has 16 points; point `t` fetches graphs `2t` and `2t + 1` of the node array and writes rows `2t`, `2t + 1`
  of the output array back. The weight column and the bias are fetched once and stay. The body's two stores tile the
  output block, so what the block holds after the body is a function of the point's three input blocks alone. After
  the region the host reshapes the output array `[32, 1, 256]` to `[32, 256]`.
-/
import proofs.«168193_j54571854463410_2_alg».proof.Proof.PoolBodyBits

set_option maxRecDepth 16384

noncomputable section

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The output block after the body -/

/-- The body's two stores tile the output block (graph 0's row, then graph 1's), so they cover it. -/
theorem body_cover (c : Dev nD) (i : grid0.Coords)
    (arg1 : Memref sig .tc .vmem S2x8192x256 .f32) (harg1 : arg1.IsWhole)
    (arg2 : Memref sig .tc .vmem S256x1 .f32) (harg2 : arg2.IsWhole)
    (arg3 : Memref sig .tc .vmem S1 .f32) (harg3 : arg3.IsWhole)
    (arg4 : Memref sig .tc .vmem S2x1x256 .f32) (harg4 : arg4.IsWhole)
    (x : Vec F S2x8192x256 .f32) (w : Vec F S256x1 .f32) (b : Vec F S1 .f32) (y : S2x1x256.Idx) :
    ∃ pc ∈ (bodyRun c i arg1 harg1 arg2 harg2 arg3 harg3 arg4 harg4 x w b).1, y ∈ pc.1.set :=
  View.cover_of_tiledL (bodyRun c i arg1 harg1 arg2 harg2 arg3 harg3 arg4 harg4 x w b).1 S1x1x256.size (by sl_kernel_rfl) y

/-- What the body leaves in the output block: its two pieces read back (over anything: they cover the block). -/
def outAt (c : Dev nD) (i : grid0.Coords)
    (arg1 : Memref sig .tc .vmem S2x8192x256 .f32) (harg1 : arg1.IsWhole)
    (arg2 : Memref sig .tc .vmem S256x1 .f32) (harg2 : arg2.IsWhole)
    (arg3 : Memref sig .tc .vmem S1 .f32) (harg3 : arg3.IsWhole)
    (arg4 : Memref sig .tc .vmem S2x1x256 .f32) (harg4 : arg4.IsWhole)
    (x : Vec F S2x8192x256 .f32) (w : Vec F S256x1 .f32) (b : Vec F S1 .f32) : Vec F S2x1x256 .f32 :=
  outView.read (Elt F) (outView.writes (Elt F) outView.junk (bodyRun c i arg1 harg1 arg2 harg2 arg3 harg3 arg4 harg4 x w b).1)

/-! ## The contents of every window's buffer, point by point -/

/-- On core `c`: the arrays as the region finds them; after the body at point `t` each input's buffer still at its
    block, the output's at the body's two pieces computed from the point's three input blocks; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt c (grid0.coords t) (bufX t) (bufX_whole t) (bufW t) (bufW_whole t) (bufB t) (bufB_whole t) (bufO t) (bufO_whole t)
        (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_b (c : Dev nD) (t : Fin cfg0.N) : (dats m 0 c).after 2 t = iblk m c 2 t := by dsimp only [dats]
theorem after_o (c : Dev nD) (t : Fin cfg0.N) : (dats m 0 c).after 3 t =
    outAt c (grid0.coords t) (bufX t) (bufX_whole t) (bufW t) (bufW_whole t) (bufB t) (bufB_whole t) (bufO t) (bufO_whole t)
      (iblk m c 0 t) (iblk m c 1 t) (iblk m c 2 t) := by dsimp only [dats]

/-- Each input's current buffer holds its block at every point, whether fetched there or kept from an earlier one. -/
theorem before_x (c : Dev nD) (t : Fin cfg0.N) (d) : (dats m 0 c).before 0 t d = iblk m c 0 t :=
  before0_0_of m (dats m 0 c) (A_eq m c 0) (after_x m c) t d
theorem before_w (c : Dev nD) (t : Fin cfg0.N) (d) : (dats m 0 c).before 1 t d = iblk m c 1 t :=
  before0_1_of m (dats m 0 c) (A_eq m c 1) (after_w m c) t d
theorem before_b (c : Dev nD) (t : Fin cfg0.N) (d) : (dats m 0 c).before 2 t d = iblk m c 2 t :=
  before0_2_of m (dats m 0 c) (A_eq m c 2) (after_b m c) t d

/-! ## The body at a point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (bufX t) fullShare ((dats m 0 c).before 0 t d))
    ∗ (∃ d, owns (c : Thread nD τ) (bufW t) fullShare ((dats m 0 c).before 1 t d))
    ∗ (∃ d, owns (c : Thread nD τ) (bufB t) fullShare ((dats m 0 c).before 2 t d))
    ∗ (∃ d, owns (c : Thread nD τ) (bufO t) fullShare ((dats m 0 c).before 3 t d)))

/-- and what it hands back. -/
def bodyPost (c : Dev nD) (t : Fin cfg0.N) : sProp 𝕄 :=
  iprop((dats m 0 c).Φ t.succ ∗ (dats m 0 c).owesAt () t.succ
    ∗ owns (c : Thread nD τ) (bufX t) fullShare ((dats m 0 c).after 0 t)
    ∗ owns (c : Thread nD τ) (bufW t) fullShare ((dats m 0 c).after 1 t)
    ∗ owns (c : Thread nD τ) (bufB t) fullShare ((dats m 0 c).after 2 t)
    ∗ owns (c : Thread nD τ) (bufO t) fullShare ((dats m 0 c).after 3 t))

set_option maxHeartbeats 1000000 in
/-- The body at any point: the inputs' buffers hold their blocks, so the run applies; what it leaves in the output
    buffer reads back as the two pieces because they cover the block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_w, before_b]
  rw [show (dats m 0 c).Φ t.succ = (dats m 0 c).Φ t.castSucc from rfl,
    show (dats m 0 c).owesAt () t.succ = (dats m 0 c).owesAt () t.castSucc from rfl,
    after_x, after_w, after_b, after_o]
  unfold outAt
  iintro ⟨HΦ, Ho, ⟨%d0, H0⟩, ⟨%d1, H1⟩, ⟨%d2, H2⟩, ⟨%d3, H3⟩⟩
  iapply ((bodyRun c (grid0.coords t) _ _ _ _ _ _ _ _ (iblk m c 0 t) (iblk m c 1 t) (iblk m c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (body_cover c _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run around the region -/

set_option backward.isDefEq.respectTransparency.types false in
/-- Every weakly fair execution of the program terminates without a fault; afterwards every array of the region is
    what the window contents above make it, and the reshaped result is the host reshape of the output array. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program terminates, faults nowhere, and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Pool

end
-- ==== Proof.PoolBodyIdeal.lean ====
/-
  The body of the pooling kernel of the idealized kernel program at one grid point.

  A grid point `t` (of 16) holds two graphs. For each of them the body walks the graph's 8192 node rows in eight
  chunks of 1024, carrying a running maximum, a running sum of exponentials and a running weighted row sum, and stores
  the weighted row sum divided by the sum of exponentials into the graph's row of the output block. Nothing but the
  output block is written: the three input blocks are read and handed back as they were.

  Stated here: what the body reads (the weight column, the bias, each chunk of each graph), the running triple of each
  graph as a recursion over the chunks in the body's own arithmetic, and the run of the body, whose two stores leave
  two pieces in the output block: the quotient for each graph, computed from its triple after the eighth chunk.
-/
import proofs.«168193_j54571854463410_2_alg».proof.Proof.Gen.KernelIdeal.Launch
import proofs.«168193_j54571854463410_2_alg».proof.Proof.Gen.KernelIdeal.Skeleton
import proofs.«168193_j54571854463410_2_alg».proof.Proof.Gen.KernelIdeal.Loops
import proofs.«168193_j54571854463410_2_alg».proof.Proof.Gen.KernelIdeal.Points
import proofs.«168193_j54571854463410_2_alg».proof.Proof.Gen.KernelIdeal.Frame
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers the body is called on -/

/-- One buffer of the output window, through which the output block's contents are stated. -/
abbrev outView : View sig .tc .vmem S2x1x256 .f32 := (Memref.whole cc0_stg3_0 : Memref sig .tc .vmem S2x1x256 .f32).view

/-- Each window's current buffer at point `t`, and that it is a whole buffer. -/
abbrev bufX (t : Fin cfg0.N) : Memref sig .tc .vmem S2x8192x256 .f32 := win0_0.stage (cfg0.slots t 0)
abbrev bufX_whole (t : Fin cfg0.N) : (bufX t).IsWhole := hstage0_0 ((cfg0.slots t 0).cast nbuf0_0)
abbrev bufW (t : Fin cfg0.N) : Memref sig .tc .vmem S256x1 .f32 := win0_1.stage (cfg0.slots t 1)
abbrev bufW_whole (t : Fin cfg0.N) : (bufW t).IsWhole := hstage0_1 ((cfg0.slots t 1).cast nbuf0_1)
abbrev bufB (t : Fin cfg0.N) : Memref sig .tc .vmem S1 .f32 := win0_2.stage (cfg0.slots t 2)
abbrev bufB_whole (t : Fin cfg0.N) : (bufB t).IsWhole := hstage0_2 ((cfg0.slots t 2).cast nbuf0_2)
abbrev bufO (t : Fin cfg0.N) : Memref sig .tc .vmem S2x1x256 .f32 := win0_3.stage (cfg0.slots t 3)
abbrev bufO_whole (t : Fin cfg0.N) : (bufO t).IsWhole := hstage0_3 ((cfg0.slots t 3).cast nbuf0_3)

/-! ## What the body reads -/

/-- The weight column and the bias as the body loads them: the whole buffer read through its whole rectangle. -/
def loadedW (arg2 : Memref sig .tc .vmem S256x1 .f32) (harg2 : arg2.IsWhole) (w : Vec F S256x1 .f32) : Vec F S256x1 .f32 :=
  View.readAt (Elt F) arg2.view (Rect.unit (s := S256x1) ![0, 0] S256x1.size inb_S256x1_S256x1_0_0).toLoadRect (harg2.unread w)
def loadedB (arg3 : Memref sig .tc .vmem S1 .f32) (harg3 : arg3.IsWhole) (b : Vec F S1 .f32) : Vec F S1 .f32 :=
  View.readAt (Elt F) arg3.view (Rect.unit (s := S1) ![0] S1.size inb_S1_S1_0).toLoadRect (harg3.unread b)

/-- Chunk `k` of the first graph of the node block: rows `1024 k … 1024 k + 1023` of the block's slab 0. -/
def chunkA (arg1 : Memref sig .tc .vmem S2x8192x256 .f32) (harg1 : arg1.IsWhole) (x : Vec F S2x8192x256 .f32)
    (k : Fin k0_t1_loop.trips) : Vec F S1024x256 .f32 :=
  View.readAt (Elt F)
    ((arg1.slice (Rect.unit (s := S2x8192x256) ![0, 0, 0] S1x8192x256.size inb_S2x8192x256_S1x8192x256_0_0_0) (fun _ => rfl)).squeeze
      S8192x256 squeezes_S1x8192x256_S8192x256).view
    (Rect.unit (s := S8192x256) (k0_off1 k) S1024x256.size (k0_off1_inb k)).toLoadRect (harg1.unread x)

/-- Chunk `k` of the second graph: the same rows of slab 1. -/
def chunkB (arg1 : Memref sig .tc .vmem S2x8192x256 .f32) (harg1 : arg1.IsWhole) (x : Vec F S2x8192x256 .f32)
    (k : Fin k0_t2_loop.trips) : Vec F S1024x256 .f32 :=
  View.readAt (Elt F)
    ((arg1.slice (Rect.unit (s := S2x8192x256) ![1, 0, 0] S1x8192x256.size inb_S2x8192x256_S1x8192x256_1_0_0) (fun _ => rfl)).squeeze
      S8192x256 squeezes_S1x8192x256_S8192x256).view
    (Rect.unit (s := S8192x256) (k0_off2 k) S1024x256.size (k0_off2_inb k)).toLoadRect (harg1.unread x)

/-! ## The running triple of each graph, chunk by chunk -/

/-- The triple a chunk loop carries: running maximum, running sum of exponentials, running weighted row sum. -/
abbrev Carried (F : FTy → Type) := FVec F S1x1 .f32 × FVec F S1x1 .f32 × FVec F S1x256 .f32

/-- The first graph's triple before chunk `k`: from (−∞, 0, 0), each chunk taken in by the body's own arithmetic. -/
def carriedA (v0 : Vec F S256x1 .f32) (v1 : Vec F S1 .f32) (ch : Fin k0_t1_loop.trips → Vec F S1024x256 .f32) : ℕ → Carried F
  | 0 => (k0_pay1, k0_pay2, k0_pay3)
  | k + 1 => if h : k < k0_t1_loop.trips then
      (k0_pay5 v0 v1 (carriedA v0 v1 ch k).1 (ch ⟨k, h⟩),
       k0_pay8 v0 v1 (carriedA v0 v1 ch k).1 (carriedA v0 v1 ch k).2.1 (ch ⟨k, h⟩),
       k0_pay9 v0 v1 (carriedA v0 v1 ch k).1 (carriedA v0 v1 ch k).2.2 (ch ⟨k, h⟩))
    else carriedA v0 v1 ch k

theorem carriedA_succ (v0 : Vec F S256x1 .f32) (v1 : Vec F S1 .f32) (ch : Fin k0_t1_loop.trips → Vec F S1024x256 .f32)
    (k : Fin k0_t1_loop.trips) :
    carriedA v0 v1 ch (k.val + 1) =
      (k0_pay5 v0 v1 (carriedA v0 v1 ch k.val).1 (ch k),
       k0_pay8 v0 v1 (carriedA v0 v1 ch k.val).1 (carriedA v0 v1 ch k.val).2.1 (ch k),
       k0_pay9 v0 v1 (carriedA v0 v1 ch k.val).1 (carriedA v0 v1 ch k.val).2.2 (ch k)) := by
  rw [carriedA.eq_2]; exact dif_pos k.isLt

/-- The second graph's triple before chunk `k`. -/
def carriedB (v0 : Vec F S256x1 .f32) (v1 : Vec F S1 .f32) (ch : Fin k0_t2_loop.trips → Vec F S1024x256 .f32) : ℕ → Carried F
  | 0 => (k0_pay11, k0_pay12, k0_pay13)
  | k + 1 => if h : k < k0_t2_loop.trips then
      (k0_pay15 v0 v1 (carriedB v0 v1 ch k).1 (ch ⟨k, h⟩),
       k0_pay18 v0 v1 (carriedB v0 v1 ch k).1 (carriedB v0 v1 ch k).2.1 (ch ⟨k, h⟩),
       k0_pay19 v0 v1 (carriedB v0 v1 ch k).1 (carriedB v0 v1 ch k).2.2 (ch ⟨k, h⟩))
    else carriedB v0 v1 ch k

theorem carriedB_succ (v0 : Vec F S256x1 .f32) (v1 : Vec F S1 .f32) (ch : Fin k0_t2_loop.trips → Vec F S1024x256 .f32)
    (k : Fin k0_t2_loop.trips) :
    carriedB v0 v1 ch (k.val + 1) =
      (k0_pay15 v0 v1 (carriedB v0 v1 ch k.val).1 (ch k),
       k0_pay18 v0 v1 (carriedB v0 v1 ch k.val).1 (carriedB v0 v1 ch k.val).2.1 (ch k),
       k0_pay19 v0 v1 (carriedB v0 v1 ch k.val).1 (carriedB v0 v1 ch k.val).2.2 (ch k)) := by
  rw [carriedB.eq_2]; exact dif_pos k.isLt

/-- A chunk loop's invariant: the node block is held whole at its contents, and the carried triple is the running
    triple before chunk `k`. -/
def loopInvA (c : Dev nD) (arg1 : Memref sig .tc .vmem S2x8192x256 .f32) (harg1 : arg1.IsWhole) (x : Vec F S2x8192x256 .f32)
    (v0 : Vec F S256x1 .f32) (v1 : Vec F S1 .f32) (k : ℕ) (acc : Carried F) : sProp 𝕄 :=
  iprop((arg1.view.loc (c : Thread nD τ) ↦[arg1.view.set]{fullShare} harg1.unread x)
    ∗ ⌜acc = carriedA v0 v1 (chunkA arg1 harg1 x) k⌝)
def loopInvB (c : Dev nD) (arg1 : Memref sig .tc .vmem S2x8192x256 .f32) (harg1 : arg1.IsWhole) (x : Vec F S2x8192x256 .f32)
    (v0 : Vec F S256x1 .f32) (v1 : Vec F S1 .f32) (k : ℕ) (acc : Carried F) : sProp 𝕄 :=
  iprop((arg1.view.loc (c : Thread nD τ) ↦[arg1.view.set]{fullShare} harg1.unread x)
    ∗ ⌜acc = carriedB v0 v1 (chunkB arg1 harg1 x) k⌝)

/-! ## The body's run -/

set_option maxHeartbeats 4000000 in
/-- The pieces the body's two stores leave in the output block, last store first, with the run that finds them: on
    whole buffers — the node block `x`, the weight column `w` and the bias `b` at their contents, the output block at
    anything — the body runs to its end holding the three inputs as they were and the output block with the pieces
    written. Each chunk loop is passed by its invariant over a symbolic chunk. -/
noncomputable def bodyRun (c : Dev nD) (i : grid0.Coords)
    (arg1 : Memref sig .tc .vmem S2x8192x256 .f32) (harg1 : arg1.IsWhole)
    (arg2 : Memref sig .tc .vmem S256x1 .f32) (harg2 : arg2.IsWhole)
    (arg3 : Memref sig .tc .vmem S1 .f32) (harg3 : arg3.IsWhole)
    (arg4 : Memref sig .tc .vmem S2x1x256 .f32) (harg4 : arg4.IsWhole)
    (x : Vec F S2x8192x256 .f32) (w : Vec F S256x1 .f32) (b : Vec F S1 .f32) :
    { L : List (View.Piece (Elt F) S2x1x256 .f32) //
      ∀ (E : Set ℕ) (K : PUnit → sProp 𝕄),
        iprop(owns (c : Thread nD τ) arg1 fullShare x ∗ owns (c : Thread nD τ) arg2 fullShare w ∗ owns (c : Thread nD τ) arg3 fullShare b
            ∗ (∃ d, owns (c : Thread nD τ) arg4 fullShare d)
            ∗ (iprop(owns (c : Thread nD τ) arg1 fullShare x ∗ owns (c : Thread nD τ) arg2 fullShare w ∗ owns (c : Thread nD τ) arg3 fullShare b
                ∗ (∃ f, arg4.view.loc (c : Thread nD τ) ↦[arg4.view.set]{fullShare} arg4.view.writes (Elt F) f L)) -∗ K ⟨⟩))
          ⊢ wp frame (wpE (defs₀ (F := F)) Variants.none c none) E (cc0__pool_kernel i arg1 harg1 arg2 harg2 arg3 harg3 arg4 harg4) K } := by
  refine ⟨?_, fun E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_for (loopInvA c arg1 harg1 x (loadedW arg2 harg2 w) (loadedB arg3 harg3 b)) $$ [H0]
    case region =>
      intro k acc; unfold loopInvA; iintro ⟨H0, %hacc⟩
      subst hacc
      sl_exec
      sl_step
      isplitl [H0]; · iexact H0
      ipureintro; rw [carriedA_succ]; rfl
    · unfold loopInvA; isplitl [H0]; · iexact H0
      ipureintro; rfl
    iintro %accA HI
    unfold loopInvA; icases HI with ⟨H0, %haccA⟩
    subst haccA
    sl_exec
    sl_for (loopInvB c arg1 harg1 x (loadedW arg2 harg2 w) (loadedB arg3 harg3 b)) $$ [H0]
    case region =>
      intro k acc; unfold loopInvB; iintro ⟨H0, %hacc⟩
      subst hacc
      sl_exec
      sl_step
      isplitl [H0]; · iexact H0
      ipureintro; rw [carriedB_succ]; rfl
    · unfold loopInvB; isplitl [H0]; · iexact H0
      ipureintro; rfl
    iintro %accB HI
    unfold loopInvB; icases HI with ⟨H0, %haccB⟩
    subst haccB
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.KernelIdeal.Pool

end
-- ==== Proof.PoolSpec.lean ====
/-
  The function both programs compute, and the recurrence the kernel computes it by.

  A graph has nodes indexed by a chunk `k` and a row `i` inside the chunk; node `(k, i)` has a score `g k i` and a
  feature row `x k i`. Attention pooling returns, feature by feature, the sum of the rows weighted by the softmax of
  the scores: with `top` the largest score, node `p` weighs `exp (g p - top)` and the weights are divided by their
  total (`pooled`).

  The kernel never forms the softmax. It walks the chunks keeping a triple: the largest score so far `m`, the total
  `l` of `exp (g - m)` over the nodes so far, and the row sum `a` weighted the same way. Taking a chunk in (`absorb`)
  raises `m` to the new maximum `m'`, rescales `l` and `a` by `exp (m - m')` and adds the chunk's own terms; at the
  end it returns `a / l`. On finite scores and rows the two agree: `exp (m - m') * exp (g - m) = exp (g - m')`, and a
  common positive finite divisor moves across a finite sum.

  Everything is stated on the extended reals with the operations the idealized programs use (`Ideal.exp`,
  `Ideal.div`), over the literal array shapes, so that each program's value can be matched to it index by index.
-/
import Idealize.ShloMosaic.PureOps.Ideal
import Idealize.ShloMosaic.Lib.ValueIdx

noncomputable section

open scoped BigOperators

namespace Cert.PoolSpec

open Idealize.ShloMosaic Idealize.ShloMosaic.ValueIdx

/-! ## One graph, over any finite chunk, row and feature index sets -/

section OneGraph

variable {κ ι φ : Type} [Fintype κ] [Fintype ι]

/-- The largest score of the graph (`⊥` if it has no node). -/
def top (g : κ → ι → EReal) : EReal := Finset.univ.sup fun p : κ × ι => g p.1 p.2

/-- A node's weight before normalisation: the exponential of its score's distance below the largest. -/
def weight (g : κ → ι → EReal) (p : κ × ι) : EReal := Ideal.exp (g p.1 p.2 - top g)

/-- The total of the weights. -/
def mass (g : κ → ι → EReal) : EReal := ∑ q : κ × ι, weight g q

/-- Attention pooling: feature `f` of the rows' sum weighted by the softmax of the scores. -/
def pooled (g : κ → ι → EReal) (x : κ → ι → φ → EReal) (f : φ) : EReal :=
  ∑ p : κ × ι, Ideal.div (weight g p) (mass g) * x p.1 p.2 f

/-- The running triple: largest score so far, total weight relative to it, weighted row sum relative to it. -/
abbrev Running (φ : Type) := EReal × EReal × (φ → EReal)

/-- Before any chunk: no maximum, nothing summed. -/
def start : Running φ := (⊥, 0, fun _ => 0)

/-- Take one chunk in: scores `g`, rows `x`. -/
def absorb (g : ι → EReal) (x : ι → φ → EReal) (s : Running φ) : Running φ :=
  (max s.1 (Finset.univ.sup g),
   Ideal.exp (s.1 - max s.1 (Finset.univ.sup g)) * s.2.1 + ∑ i, Ideal.exp (g i - max s.1 (Finset.univ.sup g)),
   fun f => Ideal.exp (s.1 - max s.1 (Finset.univ.sup g)) * s.2.2 f
              + ∑ i, Ideal.exp (g i - max s.1 (Finset.univ.sup g)) * x i f)

/-- The running triple after the first `k` of `K` chunks (it stays put past the last). -/
def after {K : ℕ} (g : Fin K → ι → EReal) (x : Fin K → ι → φ → EReal) : ℕ → Running φ
  | 0 => start
  | k + 1 => if h : k < K then absorb (g ⟨k, h⟩) (x ⟨k, h⟩) (after g x k) else after g x k

/-- What the kernel returns for the graph: the weighted row sum over the total weight, after all chunks. -/
def online {K : ℕ} (g : Fin K → ι → EReal) (x : Fin K → ι → φ → EReal) (f : φ) : EReal :=
  Ideal.div ((after g x K).2.2 f) (after g x K).2.1

end OneGraph

/-! ## The arrays -/

/-- The node features `[32, 8192, 256]`, the score weights `[256, 1]`, the score bias `[1]`, the result `[32, 256]`. -/
abbrev SX : Shape := ⟨3, ![32, 8192, 256]⟩
abbrev SW : Shape := ⟨2, ![256, 1]⟩
abbrev SB : Shape := ⟨1, ![1]⟩
abbrev SO : Shape := ⟨2, ![32, 256]⟩

/-- Row `i` of chunk `k` is node `1024 k + i` of the graph's 8192. -/
def node (k : Fin 8) (i : Fin 1024) : Fin 8192 := ⟨1024 * k.val + i.val, by omega⟩

/-- The score of a node of graph `B`: its row against the weight column, plus the bias. -/
def score (x : SX.Idx → EReal) (w : SW.Idx → EReal) (b : SB.Idx → EReal) (B : Fin 32) (k : Fin 8) (i : Fin 1024) : EReal :=
  (∑ f : Fin 256, x (ix3 B (node k i) f) * w (ix2 f (0 : Fin 1))) + b (ix1 (0 : Fin 1))

/-- The feature row of a node of graph `B`. -/
def rows (x : SX.Idx → EReal) (B : Fin 32) (k : Fin 8) (i : Fin 1024) (f : Fin 256) : EReal := x (ix3 B (node k i) f)

/-- The result at graph `B`, feature `f`. -/
def pooledAt (x : SX.Idx → EReal) (w : SW.Idx → EReal) (b : SB.Idx → EReal) (B : Fin 32) (f : Fin 256) : EReal :=
  pooled (score x w b B) (rows x B) f

/-- THE RESULT ARRAY as one function of the three argument arrays. -/
def G (x : SX.Idx → EReal) (w : SW.Idx → EReal) (b : SB.Idx → EReal) : SO.Idx → EReal :=
  fun j => pooledAt x w b (j 0) (j 1)

theorem G_ix2 (x : SX.Idx → EReal) (w : SW.Idx → EReal) (b : SB.Idx → EReal) (B : Fin 32) (f : Fin 256) :
    G x w b (ix2 B f) = pooledAt x w b B f := rfl

end Cert.PoolSpec

end
-- ==== Proof.LibColumn.lean ====
/-
  Two layout operations read at an index written by coordinates, for the COLUMN shape `[a, 1]`: the shape a
  reduction along the last axis of an `[a, b]` matrix passes through when its result is set back beside the matrix
  (a row statistic kept as a column and repeated along the row).
  • a vector `[a]` viewed as the column `[a, 1]` reads, at `(i, u)`, the vector at `i`;
  • a column `[a, 1]` repeated along its unit axis to `[a, b]` reads, at `(i, j)`, the column at `(i, 0)`.
  Both are the general "read at an index" lemmas of a shape cast and of a broadcast with the row-major position,
  respectively the per-axis coordinates, worked out at these two ranks.
-/
import Idealize.ShloMosaic.Lib.Pipeline.Value
import Idealize.ShloMosaic.Lib.ValueIdx

namespace Cert.Column

open Idealize.ShloMosaic Idealize.ShloMosaic.ValueIdx

variable {α : Type}

/-- An `[a]` vector cast to the column `[a, 1]` reads, at `(i, u)`, the vector at `i`, whatever the unit
    coordinate `u`: the row-major position of `(i, u)` in `[a, 1]` is `i · 1 + u = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` repeated along its unit axis to `[a, b]` reads, at `(i, j)`, the column's entry of row `i`:
    on the first axis the coordinate is kept (or is `0` anyway when `a = 1`), on the unit axis it is `0`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Cert.Column
-- ==== Proof.PoolPayIdeal.lean ====
/-
  The body's arithmetic on one chunk, at the ideal instance, is the running triple's update.

  From a chunk of 1024 node rows `ch`, the weight column `v0` and the bias `v1`, the body forms the chunk's scores
  (each row against the weight column, plus the bias), raises the running maximum to cover them, rescales the
  running sum and the running weighted row sum by the exponential of the old maximum's distance below the new one, and
  adds the chunk's exponentials and its exponential-weighted rows. Read entry by entry on the extended reals — the
  matrix product a sum over the 256 features, the maximum over the chunk a supremum, the two lane reductions sums over
  the 1024 rows — this is `absorb` of the specification applied to the triple's three entries.
-/
import proofs.«168193_j54571854463410_2_alg».proof.Proof.PoolBodyIdeal
import proofs.«168193_j54571854463410_2_alg».proof.Proof.PoolSpec
import proofs.«168193_j54571854463410_2_alg».proof.Proof.LibColumn
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Pool

open Cert.KernelIdeal Cert.KernelIdeal.Gen
open Idealize.ShloMosaic Idealize.ShloMosaic.ValueIdx
open Cert.PoolSpec (Running absorb start)

/-! ## Small facts -/

/-- The pattern of `-∞` is the bottom of the extended reals; a fold of `max` from it is the supremum. -/
theorem negInf_bits : Ideal.ofBits .f32 0xFF800000#32 = (⊥ : EReal) := by simp [Ideal.ofBits, Ideal.ieee]

theorem fold_max_eq_sup {ι : Type} (s : Finset ι) (g : ι → EReal) : s.fold max ⊥ g = s.sup g := by
  classical
  induction s using Finset.induction_on with
  | empty => simp
  | insert a s ha ih => rw [Finset.fold_insert ha, Finset.sup_insert, ih]

/-! ## The matrix product's operand indices, coordinate by coordinate -/

theorem lhs_row (j : S1024x1.Idx) (q : dot_S1024x256_S256x1_S1024x1_1_0_0_1_n_n.contr.Idx) : (dot_S1024x256_S256x1_S1024x1_1_0_0_1_n_n.lhsIdx j q 0).val = (j 0).val := by
  unfold DotDims.lhsIdx
  rw [dif_neg (show ¬(0 : Fin S1024x256.rank) ∈ dot_S1024x256_S256x1_S1024x1_1_0_0_1_n_n.lhsBatch by decide),
    dif_pos (show (0 : Fin S1024x256.rank) ∈ dot_S1024x256_S256x1_S1024x1_1_0_0_1_n_n.lhsNonContracting by decide)]
  rfl
theorem lhs_feat (j : S1024x1.Idx) (q : dot_S1024x256_S256x1_S1024x1_1_0_0_1_n_n.contr.Idx) : (dot_S1024x256_S256x1_S1024x1_1_0_0_1_n_n.lhsIdx j q 1).val = (q ⟨0, by decide⟩).val :=
  dot_S1024x256_S256x1_S1024x1_1_0_0_1_n_n.lhsIdx_val_of_single rfl j q
theorem rhs_feat (j : S1024x1.Idx) (q : dot_S1024x256_S256x1_S1024x1_1_0_0_1_n_n.contr.Idx) : (dot_S1024x256_S256x1_S1024x1_1_0_0_1_n_n.rhsIdx j q 0).val = (q ⟨0, by decide⟩).val :=
  dot_S1024x256_S256x1_S1024x1_1_0_0_1_n_n.rhsIdx_val_of_single rfl j q
theorem rhs_col (j : S1024x1.Idx) (q : dot_S1024x256_S256x1_S1024x1_1_0_0_1_n_n.contr.Idx) : (dot_S1024x256_S256x1_S1024x1_1_0_0_1_n_n.rhsIdx j q 1).val = (j 1).val := by
  unfold DotDims.rhsIdx
  rw [dif_neg (show ¬(1 : Fin S256x1.rank) ∈ dot_S1024x256_S256x1_S1024x1_1_0_0_1_n_n.rhsBatch by decide),
    dif_pos (show (1 : Fin S256x1.rank) ∈ dot_S1024x256_S256x1_S1024x1_1_0_0_1_n_n.rhsNonContracting by decide)]
  rfl

/-! ## A chunk's scores and rows -/

/-- Row `i` of the chunk scored: its 256 features against the weight column, plus the bias. -/
def chunkScore (v0 : FVec Ideal S256x1 .f32) (v1 : FVec Ideal S1 .f32) (ch : FVec Ideal S1024x256 .f32) (i : Fin 1024) : EReal :=
  (∑ f : Fin 256, ch (ix2 i f) * v0 (ix2 f (0 : Fin 1))) + v1 (ix1 (0 : Fin 1))

/-- Row `i` of the chunk, feature `f`. -/
def chunkRows (ch : FVec Ideal S1024x256 .f32) (i : Fin 1024) (f : Fin 256) : EReal := ch (ix2 i f)

/-- The product of the chunk with the weight column, at row `i`: the sum over the features. -/
theorem matmul_row (v0 : FVec Ideal S256x1 .f32) (ch : FVec Ideal S1024x256 .f32) (i : Fin 1024) :
    (matmul (F := Ideal) dot_S1024x256_S256x1_S1024x1_1_0_0_1_n_n none ch v0 (constant S1024x1 .f32 0x00000000#32)) (ix2 i (0 : Fin 1))
      = ∑ f : Fin 256, ch (ix2 i f) * v0 (ix2 f (0 : Fin 1)) := by
  simp only [matmul]
  rw [Ideal.matmul_constant_zero_apply, ← Equiv.sum_comp (contrEquiv1 dot_S1024x256_S256x1_S1024x1_1_0_0_1_n_n 256 rfl rfl).symm]
  refine Finset.sum_congr rfl fun k _ => ?_
  have hk := contrEquiv1_symm_val dot_S1024x256_S256x1_S1024x1_1_0_0_1_n_n 256 rfl rfl k
  have el : dot_S1024x256_S256x1_S1024x1_1_0_0_1_n_n.lhsIdx (ix2 i (0 : Fin 1)) ((contrEquiv1 dot_S1024x256_S256x1_S1024x1_1_0_0_1_n_n 256 rfl rfl).symm k) = ix2 i k :=
    funext fun a => Fin.ext (by
      match a with
      | ⟨0, _⟩ => exact lhs_row _ _
      | ⟨1, _⟩ => exact (lhs_feat _ _).trans hk)
  have er : dot_S1024x256_S256x1_S1024x1_1_0_0_1_n_n.rhsIdx (ix2 i (0 : Fin 1)) ((contrEquiv1 dot_S1024x256_S256x1_S1024x1_1_0_0_1_n_n 256 rfl rfl).symm k) = ix2 k (0 : Fin 1) :=
    funext fun a => Fin.ext (by
      match a with
      | ⟨0, _⟩ => exact (rhs_feat _ _).trans hk
      | ⟨1, _⟩ => exact rhs_col _ _)
  rw [el, er]

/-- The chunk's scores as the body forms them. -/
theorem scores_apply (v0 : FVec Ideal S256x1 .f32) (v1 : FVec Ideal S1 .f32) (ch : FVec Ideal S1024x256 .f32) (i : Fin 1024) :
    k0_pay4 (F := Ideal) v0 v1 ch (ix2 i (0 : Fin 1)) = chunkScore v0 v1 ch i := by
  unfold k0_pay4 chunkScore
  show (matmul (F := Ideal) dot_S1024x256_S256x1_S1024x1_1_0_0_1_n_n none ch v0 (constant S1024x1 .f32 0x00000000#32)) (ix2 i (0 : Fin 1))
      + (broadcastTo S1024x1 (shapeCast S1x1 v1 shapeCasts_S1_S1x1) broadcasts_S1x1_S1024x1) (ix2 i (0 : Fin 1)) = _
  rw [matmul_row, broadcastTo_1b_ab_apply, shapeCast_a_1a_apply]

/-! ## The three reductions over the chunk's rows, read at an entry -/

/-- The maximum of a column of 1024 from `-∞`: the supremum of its entries. -/
theorem colmax_apply (src : FVec Ideal S1024x1 .f32) :
    multiReduction (F := Ideal) .maximumf [0] S1 src 0xFF800000#32 reduces_S1024x1_S1 (.inl rfl) rfl (ix1 (0 : Fin 1))
      = Finset.univ.sup fun i : Fin 1024 => src (ix2 i (0 : Fin 1)) := by
  refine (Ideal.multiReduction_maximumf_single src 0xFF800000#32 reduces_S1024x1_S1 (.inl rfl) rfl (ix1 (0 : Fin 1))).trans ?_
  rw [show (FloatOps.ofBits (F := Ideal) .f32 0xFF800000#32) = (⊥ : EReal) from negInf_bits, fold_max_eq_sup]
  refine Finset.sup_congr rfl fun k _ => ?_
  exact congrArg src (funext fun a => Fin.ext (by match a with | ⟨0, _⟩ => rfl | ⟨1, _⟩ => rfl))

/-- The sum of a column of 1024. -/
theorem colsum_apply (src : FVec Ideal S1024x1 .f32) :
    multiReduction (F := Ideal) .add [0] S1 src 0x00000000#32 reduces_S1024x1_S1 (.inl rfl) rfl (ix1 (0 : Fin 1))
      = ∑ i : Fin 1024, src (ix2 i (0 : Fin 1)) := by
  refine (Ideal.multiReduction_add_single src 0x00000000#32 reduces_S1024x1_S1 (.inl rfl) rfl (ix1 (0 : Fin 1))).trans ?_
  refine Finset.sum_congr rfl fun k _ => ?_
  exact congrArg src (funext fun a => Fin.ext (by match a with | ⟨0, _⟩ => rfl | ⟨1, _⟩ => rfl))

/-- The sum over the 1024 rows of a `[1024, 256]` block, feature by feature. -/
theorem rowsum_apply (src : FVec Ideal S1024x256 .f32) (f : Fin 256) :
    multiReduction (F := Ideal) .add [0] S256 src 0x00000000#32 reduces_S1024x256_S256 (.inl rfl) rfl (ix1 f)
      = ∑ i : Fin 1024, src (ix2 i f) := by
  refine (Ideal.multiReduction_add_single src 0x00000000#32 reduces_S1024x256_S256 (.inl rfl) rfl (ix1 f)).trans ?_
  refine Finset.sum_congr rfl fun k _ => ?_
  exact congrArg src (funext fun a => Fin.ext (by match a with | ⟨0, _⟩ => rfl | ⟨1, _⟩ => rfl))

/-! ## The update, entry by entry -/

/-- The running maximum raised to cover the chunk. -/
def newMax (v0 : FVec Ideal S256x1 .f32) (v1 : FVec Ideal S1 .f32) (m : FVec Ideal S1x1 .f32) (ch : FVec Ideal S1024x256 .f32) : EReal :=
  max (m (ix2 (0 : Fin 1) (0 : Fin 1))) (Finset.univ.sup (chunkScore v0 v1 ch))

theorem max_apply (v0 : FVec Ideal S256x1 .f32) (v1 : FVec Ideal S1 .f32) (m : FVec Ideal S1x1 .f32) (ch : FVec Ideal S1024x256 .f32) :
    k0_pay5 (F := Ideal) v0 v1 m ch (ix2 (0 : Fin 1) (0 : Fin 1)) = newMax v0 v1 m ch := by
  unfold k0_pay5 newMax
  show max (m (ix2 (0 : Fin 1) (0 : Fin 1)))
      ((shapeCast S1x1 (multiReduction (F := Ideal) .maximumf [0] S1 (k0_pay4 v0 v1 ch) 0xFF800000#32 reduces_S1024x1_S1 (.inl rfl) rfl) shapeCasts_S1_S1x1)
        (ix2 (0 : Fin 1) (0 : Fin 1))) = _
  rw [shapeCast_a_1a_apply, colmax_apply]
  exact congrArg (max _) (Finset.sup_congr rfl fun i _ => scores_apply v0 v1 ch i)

/-- The rescaling factor: the exponential of the old maximum's distance below the new. -/
theorem scale_apply (v0 : FVec Ideal S256x1 .f32) (v1 : FVec Ideal S1 .f32) (m : FVec Ideal S1x1 .f32) (ch : FVec Ideal S1024x256 .f32) :
    k0_pay6 (F := Ideal) v0 v1 m ch (ix2 (0 : Fin 1) (0 : Fin 1))
      = Ideal.exp (m (ix2 (0 : Fin 1) (0 : Fin 1)) - newMax v0 v1 m ch) := by
  unfold k0_pay6
  show Ideal.exp (m (ix2 (0 : Fin 1) (0 : Fin 1)) - k0_pay5 (F := Ideal) v0 v1 m ch (ix2 (0 : Fin 1) (0 : Fin 1))) = _
  rw [max_apply]

/-- Row `i`'s exponential: of its score's distance below the new maximum. -/
theorem expo_apply (v0 : FVec Ideal S256x1 .f32) (v1 : FVec Ideal S1 .f32) (m : FVec Ideal S1x1 .f32) (ch : FVec Ideal S1024x256 .f32) (i : Fin 1024) :
    k0_pay7 (F := Ideal) v0 v1 m ch (ix2 i (0 : Fin 1)) = Ideal.exp (chunkScore v0 v1 ch i - newMax v0 v1 m ch) := by
  unfold k0_pay7
  show Ideal.exp (k0_pay4 (F := Ideal) v0 v1 ch (ix2 i (0 : Fin 1))
      - (broadcastTo S1024x1 (k0_pay5 (F := Ideal) v0 v1 m ch) broadcasts_S1x1_S1024x1) (ix2 i (0 : Fin 1))) = _
  rw [scores_apply, broadcastTo_1b_ab_apply, max_apply]

/-- The running sum of exponentials: rescaled, plus the chunk's. -/
theorem total_apply (v0 : FVec Ideal S256x1 .f32) (v1 : FVec Ideal S1 .f32) (m l : FVec Ideal S1x1 .f32) (ch : FVec Ideal S1024x256 .f32) :
    k0_pay8 (F := Ideal) v0 v1 m l ch (ix2 (0 : Fin 1) (0 : Fin 1))
      = Ideal.exp (m (ix2 (0 : Fin 1) (0 : Fin 1)) - newMax v0 v1 m ch) * l (ix2 (0 : Fin 1) (0 : Fin 1))
        + ∑ i : Fin 1024, Ideal.exp (chunkScore v0 v1 ch i - newMax v0 v1 m ch) := by
  unfold k0_pay8
  show k0_pay6 (F := Ideal) v0 v1 m ch (ix2 (0 : Fin 1) (0 : Fin 1)) * l (ix2 (0 : Fin 1) (0 : Fin 1))
      + (shapeCast S1x1 (multiReduction (F := Ideal) .add [0] S1 (k0_pay7 v0 v1 m ch) 0x00000000#32 reduces_S1024x1_S1 (.inl rfl) rfl) shapeCasts_S1_S1x1)
          (ix2 (0 : Fin 1) (0 : Fin 1)) = _
  rw [scale_apply, shapeCast_a_1a_apply, colsum_apply]
  exact congrArg (_ + ·) (Finset.sum_congr rfl fun i _ => expo_apply v0 v1 m ch i)

/-- The running weighted row sum, feature `f`: rescaled, plus the chunk's rows weighted by their exponentials. -/
theorem wsum_apply (v0 : FVec Ideal S256x1 .f32) (v1 : FVec Ideal S1 .f32) (m : FVec Ideal S1x1 .f32) (a : FVec Ideal S1x256 .f32)
    (ch : FVec Ideal S1024x256 .f32) (f : Fin 256) :
    k0_pay9 (F := Ideal) v0 v1 m a ch (ix2 (0 : Fin 1) f)
      = Ideal.exp (m (ix2 (0 : Fin 1) (0 : Fin 1)) - newMax v0 v1 m ch) * a (ix2 (0 : Fin 1) f)
        + ∑ i : Fin 1024, Ideal.exp (chunkScore v0 v1 ch i - newMax v0 v1 m ch) * chunkRows ch i f := by
  unfold k0_pay9
  show (broadcastTo S1x256 (k0_pay6 (F := Ideal) v0 v1 m ch) broadcasts_S1x1_S1x256) (ix2 (0 : Fin 1) f) * a (ix2 (0 : Fin 1) f)
      + (shapeCast S1x256 (multiReduction (F := Ideal) .add [0] S256
            (mulf (broadcastTo S1024x256 (k0_pay7 (F := Ideal) v0 v1 m ch) broadcasts_S1024x1_S1024x256) ch)
            0x00000000#32 reduces_S1024x256_S256 (.inl rfl) rfl) shapeCasts_S256_S1x256) (ix2 (0 : Fin 1) f) = _
  rw [Cert.Column.broadcastTo_a1_ab_apply, scale_apply, shapeCast_a_1a_apply, rowsum_apply]
  refine congrArg (_ + ·) (Finset.sum_congr rfl fun i _ => ?_)
  show (broadcastTo S1024x256 (k0_pay7 (F := Ideal) v0 v1 m ch) broadcasts_S1024x1_S1024x256) (ix2 i f) * ch (ix2 i f) = _
  rw [Cert.Column.broadcastTo_a1_ab_apply, expo_apply]
  rfl

/-! ## The triple's three entries, and the update as `absorb` -/

/-- The carried triple's entries: the maximum, the sum, the 256 weighted sums. -/
def entries (s : Carried Ideal) : Running (Fin 256) :=
  (s.1 (ix2 (0 : Fin 1) (0 : Fin 1)), s.2.1 (ix2 (0 : Fin 1) (0 : Fin 1)), fun f => s.2.2 (ix2 (0 : Fin 1) f))

/-- The body's update of the triple on a chunk is the specification's. -/
theorem entries_update (v0 : FVec Ideal S256x1 .f32) (v1 : FVec Ideal S1 .f32) (ch : FVec Ideal S1024x256 .f32) (s : Carried Ideal) :
    entries (k0_pay5 (F := Ideal) v0 v1 s.1 ch, k0_pay8 (F := Ideal) v0 v1 s.1 s.2.1 ch, k0_pay9 (F := Ideal) v0 v1 s.1 s.2.2 ch)
      = absorb (chunkScore v0 v1 ch) (chunkRows ch) (entries s) := by
  unfold entries absorb
  refine Prod.ext (max_apply v0 v1 s.1 ch) (Prod.ext (total_apply v0 v1 s.1 s.2.1 ch) (funext fun f => wsum_apply v0 v1 s.1 s.2.2 ch f))

/-- Before the first chunk: `-∞`, zero, zeros. -/
theorem entries_start : entries (k0_pay1 (F := Ideal), k0_pay2 (F := Ideal), k0_pay3 (F := Ideal)) = (start : Running (Fin 256)) := by
  unfold entries start k0_pay1 k0_pay2 k0_pay3
  refine Prod.ext ?_ (Prod.ext ?_ (funext fun f => ?_))
  · exact negInf_bits
  · exact Ideal.ofBits_zero_f32
  · exact Ideal.ofBits_zero_f32

/-- The quotient the body stores: weighted sum over total, feature by feature. -/
theorem quotient_apply (l : FVec Ideal S1x1 .f32) (a : FVec Ideal S1x256 .f32) (f : Fin 256) :
    k0_pay10 (F := Ideal) l a (ix3 (0 : Fin 1) (0 : Fin 1) f) = Ideal.div (a (ix2 (0 : Fin 1) f)) (l (ix2 (0 : Fin 1) (0 : Fin 1))) := by
  unfold k0_pay10
  rw [shapeCast_ab_1ab_apply]
  show Ideal.div (a (ix2 (0 : Fin 1) f)) ((broadcastTo S1x256 l broadcasts_S1x1_S1x256) (ix2 (0 : Fin 1) f)) = _
  rw [Cert.Column.broadcastTo_a1_ab_apply]

/-! ## The second graph's payloads are the first's -/

theorem pay15_eq : @k0_pay15 = @k0_pay5 := rfl
theorem pay18_eq : @k0_pay18 = @k0_pay8 := rfl
theorem pay19_eq : @k0_pay19 = @k0_pay9 := rfl
theorem pay20_eq : @k0_pay20 = @k0_pay10 := rfl
theorem pay11_eq : @k0_pay11 = @k0_pay1 := rfl
theorem pay12_eq : @k0_pay12 = @k0_pay2 := rfl
theorem pay13_eq : @k0_pay13 = @k0_pay3 := rfl

end Cert.KernelIdeal.Pool

end
-- ==== Proof.PoolMath.lean ====
/-
  Attention pooling computed chunk by chunk equals attention pooling computed from the definition.

  Scores and rows are finite, so everything happens among the reals sitting inside the extended reals. Write
  `G p` for the score of node `p` and `X p f` for feature `f` of its row. After the chunks `0, …, k` the
  running triple is

    m = M,   l = ∑ exp (G p - M),   a f = ∑ exp (G p - M) * X p f      (sums over the nodes of those chunks)

  where `M` is the largest score among those nodes: every such score is at most `M` and one of them equals it.
  Taking in one more chunk with largest score `C` moves the maximum to `M' = max M C`; multiplying the old sums by
  `exp (M - M')` turns every `exp (G p - M)` into `exp (G p - M')`, and the new chunk's terms are added relative to
  `M'` already. The first chunk starts from `m = ⊥`, `l = 0`, `a = 0`: the maximum becomes the chunk's own and the
  rescaled old sums are `0` whatever the factor. After the last chunk `M` is the largest score of the whole graph,
  `l` is the total weight, a positive real, and dividing the finished sum by it is dividing each term by it.
-/
import proofs.«168193_j54571854463410_2_alg».proof.Proof.PoolSpec

noncomputable section

open scoped BigOperators

namespace Cert.PoolSpec

open Idealize.ShloMosaic

/-! ## Reals inside the extended reals: finite sums and finite suprema -/

/-- The coercion commutes with finite sums. -/
theorem coe_finset_sum {α : Type} (s : Finset α) (r : α → ℝ) :
    ((∑ a ∈ s, r a : ℝ) : EReal) = ∑ a ∈ s, (r a : EReal) := by
  classical
  refine Finset.induction_on s (by simp) ?_
  intro a s ha ih
  rw [Finset.sum_insert ha, Finset.sum_insert ha, EReal.coe_add, ih]

/-- Over a nonempty finite index set the supremum of a family of reals is one of them, the largest. -/
theorem sup_coe_attained {ι : Type} [Fintype ι] [Nonempty ι] (r : ι → ℝ) :
    ∃ i0, (Finset.univ.sup fun i => (r i : EReal)) = (r i0 : EReal) ∧ ∀ i, r i ≤ r i0 := by
  obtain ⟨i0, -, h0⟩ := Finset.exists_max_image Finset.univ r Finset.univ_nonempty
  refine ⟨i0, le_antisymm ?_ ?_, fun i => h0 i (Finset.mem_univ i)⟩
  · exact Finset.sup_le fun i _ => EReal.coe_le_coe_iff.2 (h0 i (Finset.mem_univ i))
  · exact Finset.le_sup (f := fun i => (r i : EReal)) (Finset.mem_univ i0)

/-- The coercion commutes with the maximum of two reals. -/
theorem coe_max_real (a b : ℝ) : ((max a b : ℝ) : EReal) = max (a : EReal) (b : EReal) :=
  EReal.coe_strictMono.monotone.map_max

/-! ## One step of the recurrence on real data -/

section Step

variable {ι φ : Type} [Fintype ι]

/-- Taking a chunk in from a real running triple: the result is again real, with the textbook formulas. -/
theorem absorb_coe (gc : ι → ℝ) (xc : ι → φ → ℝ) (C M l : ℝ) (a : φ → ℝ)
    (hC : (Finset.univ.sup fun i => (gc i : EReal)) = (C : EReal)) :
    absorb (fun i => (gc i : EReal)) (fun i f => (xc i f : EReal))
        (((M : EReal), (l : EReal), fun f => (a f : EReal)) : Running φ)
      = (((max M C : ℝ) : EReal),
         ((Real.exp (M - max M C) * l + ∑ i, Real.exp (gc i - max M C) : ℝ) : EReal),
         fun f => ((Real.exp (M - max M C) * a f + ∑ i, Real.exp (gc i - max M C) * xc i f : ℝ) : EReal)) := by
  unfold absorb
  dsimp only
  rw [hC, ← coe_max_real]
  simp only [← EReal.coe_sub, Ideal.exp_coe, ← EReal.coe_mul, ← coe_finset_sum, ← EReal.coe_add]

/-- Taking the first chunk in: the maximum is the chunk's own and nothing is carried over. -/
theorem absorb_start_coe (gc : ι → ℝ) (xc : ι → φ → ℝ) (C : ℝ)
    (hC : (Finset.univ.sup fun i => (gc i : EReal)) = (C : EReal)) :
    absorb (fun i => (gc i : EReal)) (fun i f => (xc i f : EReal)) (start : Running φ)
      = ((C : EReal),
         ((∑ i, Real.exp (gc i - C) : ℝ) : EReal),
         fun f => ((∑ i, Real.exp (gc i - C) * xc i f : ℝ) : EReal)) := by
  unfold absorb start
  dsimp only
  rw [hC, max_eq_right (bot_le : (⊥ : EReal) ≤ (C : EReal))]
  simp only [mul_zero, zero_add, ← EReal.coe_sub, Ideal.exp_coe, ← EReal.coe_mul, ← coe_finset_sum]

/-- Moving the reference point of a weighted sum of exponentials: `exp (M - M') * exp (G - M) = exp (G - M')`. -/
theorem rescale_sum (k : ℕ) (G W : ℕ → ι → ℝ) (M M' : ℝ) :
    Real.exp (M - M') * ∑ n ∈ Finset.range k, ∑ i, Real.exp (G n i - M) * W n i
      = ∑ n ∈ Finset.range k, ∑ i, Real.exp (G n i - M') * W n i := by
  rw [Finset.mul_sum]
  refine Finset.sum_congr rfl fun n _ => ?_
  rw [Finset.mul_sum]
  refine Finset.sum_congr rfl fun i _ => ?_
  rw [← mul_assoc, ← Real.exp_add]
  congr 2
  ring

/-- The same without weights. -/
theorem rescale_sum_one (k : ℕ) (G : ℕ → ι → ℝ) (M M' : ℝ) :
    Real.exp (M - M') * ∑ n ∈ Finset.range k, ∑ i, Real.exp (G n i - M)
      = ∑ n ∈ Finset.range k, ∑ i, Real.exp (G n i - M') := by
  have h := rescale_sum k G (fun _ _ => 1) M M'
  simpa only [mul_one] using h

end Step

/-! ## The recurrence, chunk after chunk -/

/-- A family indexed by the chunks, continued by zero past the last chunk, so that sums over the first chunks
    can be written over an initial segment of the naturals. -/
def extN {K : ℕ} {α : Type} [Zero α] (r : Fin K → α) (n : ℕ) : α := if h : n < K then r ⟨n, h⟩ else 0

theorem extN_of_lt {K : ℕ} {α : Type} [Zero α] (r : Fin K → α) {n : ℕ} (h : n < K) : extN r n = r ⟨n, h⟩ :=
  dif_pos h

theorem extN_val {K : ℕ} {α : Type} [Zero α] (r : Fin K → α) (a : Fin K) : extN r a.val = r a :=
  dif_pos a.isLt

section Walk

variable {ι φ : Type} [Fintype ι]

theorem after_succ {K : ℕ} (g : Fin K → ι → EReal) (x : Fin K → ι → φ → EReal) (k : ℕ) (h : k < K) :
    after g x (k + 1) = absorb (g ⟨k, h⟩) (x ⟨k, h⟩) (after g x k) := by
  rw [after]
  exact dif_pos h

variable [Nonempty ι]

/-- The invariant: after the chunks `0, …, k` the maximum `M` is the largest score among them (an upper bound that is
    attained) and the two sums are the sums of `exp (score - M)`, plain and weighted by the rows, over their nodes. -/
theorem after_inv {K : ℕ} (gr : Fin K → ι → ℝ) (xr : Fin K → ι → φ → ℝ) :
    ∀ k, k < K → ∃ M : ℝ,
      (∀ n, n ≤ k → ∀ i, extN gr n i ≤ M) ∧ (∃ n, n ≤ k ∧ ∃ i, extN gr n i = M) ∧
      after (fun k i => (gr k i : EReal)) (fun k i f => (xr k i f : EReal)) (k + 1)
        = ((M : EReal),
           ((∑ n ∈ Finset.range (k + 1), ∑ i, Real.exp (extN gr n i - M) : ℝ) : EReal),
           fun f => ((∑ n ∈ Finset.range (k + 1), ∑ i, Real.exp (extN gr n i - M) * extN xr n i f : ℝ) : EReal)) := by
  intro k
  induction k with
  | zero =>
    intro hk
    obtain ⟨i0, hsup, hle⟩ := sup_coe_attained (gr ⟨0, hk⟩)
    refine ⟨gr ⟨0, hk⟩ i0, ?_, ⟨0, le_rfl, i0, by rw [extN_of_lt gr hk]⟩, ?_⟩
    · intro n hn i
      obtain rfl : n = 0 := Nat.le_zero.1 hn
      rw [extN_of_lt gr hk]
      exact hle i
    · rw [after_succ _ _ 0 hk]
      refine (absorb_start_coe (gr ⟨0, hk⟩) (xr ⟨0, hk⟩) _ hsup).trans ?_
      simp only [zero_add, Finset.sum_range_one, extN_of_lt gr hk, extN_of_lt xr hk]
  | succ k ih =>
    intro hk
    obtain ⟨M, hle, ⟨n0, hn0, j0, hj0⟩, haft⟩ := ih (Nat.lt_of_succ_lt hk)
    obtain ⟨i0, hsup, hcle⟩ := sup_coe_attained (gr ⟨k + 1, hk⟩)
    refine ⟨max M (gr ⟨k + 1, hk⟩ i0), ?_, ?_, ?_⟩
    · intro n hn i
      rcases Nat.lt_or_ge n (k + 1) with h | h
      · exact le_trans (hle n (Nat.lt_succ_iff.1 h) i) (le_max_left _ _)
      · obtain rfl : n = k + 1 := le_antisymm hn h
        rw [extN_of_lt gr hk]
        exact le_trans (hcle i) (le_max_right _ _)
    · rcases le_total M (gr ⟨k + 1, hk⟩ i0) with h | h
      · exact ⟨k + 1, le_rfl, i0, by rw [extN_of_lt gr hk, max_eq_right h]⟩
      · exact ⟨n0, Nat.le_succ_of_le hn0, j0, by rw [hj0, max_eq_left h]⟩
    · rw [after_succ _ _ (k + 1) hk, haft]
      refine (absorb_coe (gr ⟨k + 1, hk⟩) (xr ⟨k + 1, hk⟩) (gr ⟨k + 1, hk⟩ i0) M _ _ hsup).trans ?_
      refine Prod.ext rfl (Prod.ext ?_ ?_)
      · dsimp only
        rw [Finset.sum_range_succ _ (k + 1), rescale_sum_one, extN_of_lt gr hk]
      · funext f
        dsimp only
        rw [Finset.sum_range_succ _ (k + 1), rescale_sum, extN_of_lt gr hk, extN_of_lt xr hk]

/-- After the last chunk: `M` is the largest score of the graph and the sums run over all its nodes. -/
theorem after_final {K : ℕ} (hK : 0 < K) (gr : Fin K → ι → ℝ) (xr : Fin K → ι → φ → ℝ) :
    ∃ M : ℝ, (∀ p : Fin K × ι, gr p.1 p.2 ≤ M) ∧ (∃ p : Fin K × ι, gr p.1 p.2 = M) ∧
      after (fun k i => (gr k i : EReal)) (fun k i f => (xr k i f : EReal)) K
        = ((M : EReal),
           ((∑ p : Fin K × ι, Real.exp (gr p.1 p.2 - M) : ℝ) : EReal),
           fun f => ((∑ p : Fin K × ι, Real.exp (gr p.1 p.2 - M) * xr p.1 p.2 f : ℝ) : EReal)) := by
  obtain ⟨k, rfl⟩ : ∃ k, K = k + 1 := ⟨K - 1, by omega⟩
  obtain ⟨M, hle, ⟨n0, hn0, j0, hj0⟩, haft⟩ := after_inv gr xr k (Nat.lt_succ_self k)
  refine ⟨M, ?_, ?_, ?_⟩
  · rintro ⟨a, i⟩
    have h := hle a.val (Nat.lt_succ_iff.1 a.isLt) i
    rwa [extN_val] at h
  · have h0 : n0 < k + 1 := Nat.lt_succ_of_le hn0
    refine ⟨(⟨n0, h0⟩, j0), ?_⟩
    rw [← hj0, extN_of_lt gr h0]
  · rw [haft]
    refine Prod.ext rfl (Prod.ext ?_ ?_)
    · dsimp only
      rw [Finset.sum_range, Fintype.sum_prod_type]
      simp only [extN_val]
    · funext f
      dsimp only
      rw [Finset.sum_range, Fintype.sum_prod_type]
      simp only [extN_val]

/-- The two computations agree on real data. -/
theorem online_eq_pooled_coe {K : ℕ} (hK : 0 < K) (gr : Fin K → ι → ℝ) (xr : Fin K → ι → φ → ℝ) (f : φ) :
    online (fun k i => (gr k i : EReal)) (fun k i f => (xr k i f : EReal)) f
      = pooled (fun k i => (gr k i : EReal)) (fun k i f => (xr k i f : EReal)) f := by
  obtain ⟨M, hle, ⟨p0, hp0⟩, haft⟩ := after_final hK gr xr
  -- the largest score
  have htop : top (fun k i => (gr k i : EReal)) = (M : EReal) := by
    unfold top
    refine le_antisymm (Finset.sup_le fun p _ => EReal.coe_le_coe_iff.2 (hle p)) ?_
    rw [← hp0]
    exact Finset.le_sup (f := fun p : Fin K × ι => (gr p.1 p.2 : EReal)) (Finset.mem_univ p0)
  -- the weights
  have hweight : ∀ p : Fin K × ι,
      weight (fun k i => (gr k i : EReal)) p = ((Real.exp (gr p.1 p.2 - M) : ℝ) : EReal) := by
    intro p
    unfold weight
    rw [htop]
    dsimp only
    rw [← EReal.coe_sub, Ideal.exp_coe]
  -- their total, a positive real
  have hmass : mass (fun k i => (gr k i : EReal)) = ((∑ p : Fin K × ι, Real.exp (gr p.1 p.2 - M) : ℝ) : EReal) := by
    unfold mass
    simp only [hweight]
    rw [coe_finset_sum]
  haveI : Nonempty (Fin K) := ⟨⟨0, hK⟩⟩
  have hpos : 0 < ∑ p : Fin K × ι, Real.exp (gr p.1 p.2 - M) :=
    Finset.sum_pos (fun p _ => Real.exp_pos _) Finset.univ_nonempty
  have hne : (∑ p : Fin K × ι, Real.exp (gr p.1 p.2 - M)) ≠ 0 := ne_of_gt hpos
  -- both sides as one real
  have hon : online (fun k i => (gr k i : EReal)) (fun k i f => (xr k i f : EReal)) f
      = (((∑ p : Fin K × ι, Real.exp (gr p.1 p.2 - M) * xr p.1 p.2 f)
            * (1 / ∑ p : Fin K × ι, Real.exp (gr p.1 p.2 - M)) : ℝ) : EReal) := by
    unfold online
    rw [haft]
    dsimp only
    rw [Ideal.div_coe hne, ← EReal.coe_mul]
  have hpo : pooled (fun k i => (gr k i : EReal)) (fun k i f => (xr k i f : EReal)) f
      = ((∑ p : Fin K × ι, Real.exp (gr p.1 p.2 - M) * (1 / ∑ q : Fin K × ι, Real.exp (gr q.1 q.2 - M))
            * xr p.1 p.2 f : ℝ) : EReal) := by
    unfold pooled
    simp only [hweight, hmass]
    refine Eq.trans ?_ (coe_finset_sum _ _).symm
    refine Finset.sum_congr rfl fun p _ => ?_
    rw [Ideal.div_coe hne, ← EReal.coe_mul, ← EReal.coe_mul]
  rw [hon, hpo]
  congr 1
  rw [Finset.sum_mul]
  refine Finset.sum_congr rfl fun p _ => ?_
  ring

end Walk

/-! ## The statement on extended reals that happen to be finite -/

/-- On finite scores and rows the chunk-by-chunk computation returns attention pooling. -/
theorem online_eq_pooled {ι φ : Type} [Fintype ι] [Nonempty ι] {K : ℕ} (hK : 0 < K)
    (g : Fin K → ι → EReal) (x : Fin K → ι → φ → EReal)
    (hg : ∀ k i, ∃ r : ℝ, g k i = (r : EReal)) (hx : ∀ k i f, ∃ r : ℝ, x k i f = (r : EReal)) (f : φ) :
    online g x f = pooled g x f := by
  choose gr hgr using hg
  choose xr hxr using hx
  obtain rfl : g = fun k i => (gr k i : EReal) := funext fun k => funext fun i => hgr k i
  obtain rfl : x = fun k i f => (xr k i f : EReal) := funext fun k => funext fun i => funext fun f => hxr k i f
  exact online_eq_pooled_coe hK gr xr f

end Cert.PoolSpec

end
-- ==== Proof.PoolTripIdeal.lean ====
/-
  A graph's running triple, chunk by chunk, is the specification's recurrence.

  The body's recursion `carriedA` (first graph of a grid point) and `carriedB` (second graph) start from (−∞, 0, 0) and
  take each chunk in by the body's own arithmetic. Read entry by entry at the ideal instance, every step is the
  specification's `absorb` on the chunk's scores and rows, so after `k` chunks the triple's entries are
  `after … k`; and the quotient the body stores after the eighth chunk is `online`.
-/
import proofs.«168193_j54571854463410_2_alg».proof.Proof.PoolPayIdeal
import proofs.«168193_j54571854463410_2_alg».proof.Proof.PoolMath

set_option maxRecDepth 16384

noncomputable section

open scoped BigOperators

namespace Cert.KernelIdeal.Pool

open Cert.KernelIdeal Cert.KernelIdeal.Gen
open Idealize.ShloMosaic Idealize.ShloMosaic.ValueIdx
open Cert.PoolSpec (Running absorb start after online after_succ)

/-- Each chunk loop makes eight trips. -/
theorem tripsA : k0_t1_loop.trips = 8 := by decide +kernel
theorem tripsB : k0_t2_loop.trips = 8 := by decide +kernel

/-- The first graph's triple before chunk `k`, entry by entry, is the recurrence on the chunks' scores and rows. -/
theorem entries_carriedA (v0 : FVec Ideal S256x1 .f32) (v1 : FVec Ideal S1 .f32)
    (ch : Fin k0_t1_loop.trips → FVec Ideal S1024x256 .f32) (k : ℕ) :
    entries (carriedA v0 v1 ch k)
      = after (fun j : Fin k0_t1_loop.trips => chunkScore v0 v1 (ch j)) (fun j : Fin k0_t1_loop.trips => chunkRows (ch j)) k := by
  induction k with
  | zero => exact entries_start
  | succ k ih =>
    by_cases h : k < k0_t1_loop.trips
    · rw [after_succ _ _ k h, ← ih]
      exact (congrArg entries (carriedA_succ v0 v1 ch ⟨k, h⟩)).trans (entries_update v0 v1 (ch ⟨k, h⟩) (carriedA v0 v1 ch k))
    · rw [carriedA.eq_2, dif_neg h, Cert.PoolSpec.after.eq_2, dif_neg h]
      exact ih

/-- The second graph's update is the first's under other names. -/
theorem entries_update' (v0 : FVec Ideal S256x1 .f32) (v1 : FVec Ideal S1 .f32) (ch : FVec Ideal S1024x256 .f32) (s : Carried Ideal) :
    entries (k0_pay15 (F := Ideal) v0 v1 s.1 ch, k0_pay18 (F := Ideal) v0 v1 s.1 s.2.1 ch, k0_pay19 (F := Ideal) v0 v1 s.1 s.2.2 ch)
      = absorb (chunkScore v0 v1 ch) (chunkRows ch) (entries s) := by
  rw [pay15_eq, pay18_eq, pay19_eq]; exact entries_update v0 v1 ch s

theorem entries_start' : entries (k0_pay11 (F := Ideal), k0_pay12 (F := Ideal), k0_pay13 (F := Ideal)) = (start : Running (Fin 256)) := by
  rw [pay11_eq, pay12_eq, pay13_eq]; exact entries_start

/-- The second graph's triple likewise. -/
theorem entries_carriedB (v0 : FVec Ideal S256x1 .f32) (v1 : FVec Ideal S1 .f32)
    (ch : Fin k0_t2_loop.trips → FVec Ideal S1024x256 .f32) (k : ℕ) :
    entries (carriedB v0 v1 ch k)
      = after (fun j : Fin k0_t2_loop.trips => chunkScore v0 v1 (ch j)) (fun j : Fin k0_t2_loop.trips => chunkRows (ch j)) k := by
  induction k with
  | zero => exact entries_start'
  | succ k ih =>
    by_cases h : k < k0_t2_loop.trips
    · rw [after_succ _ _ k h, ← ih]
      exact (congrArg entries (carriedB_succ v0 v1 ch ⟨k, h⟩)).trans (entries_update' v0 v1 (ch ⟨k, h⟩) (carriedB v0 v1 ch k))
    · rw [carriedB.eq_2, dif_neg h, Cert.PoolSpec.after.eq_2, dif_neg h]
      exact ih

/-- The recurrence does not depend on how the number of chunks is spelt. -/
theorem after_cast {ι φ : Type} [Fintype ι] {K K' : ℕ} (h : K = K') (g : Fin K → ι → EReal) (x : Fin K → ι → φ → EReal) (n : ℕ) :
    after g x n = after (fun j : Fin K' => g (Fin.cast h.symm j)) (fun j : Fin K' => x (Fin.cast h.symm j)) n := by
  subst h; rfl

/-- What the body stores for the first graph, feature `f`: the recurrence's quotient over the eight chunks. -/
theorem stored_A (v0 : FVec Ideal S256x1 .f32) (v1 : FVec Ideal S1 .f32)
    (ch : Fin k0_t1_loop.trips → FVec Ideal S1024x256 .f32) (f : Fin 256) :
    k0_pay10 (F := Ideal) (carriedA v0 v1 ch k0_t1_loop.trips).2.1 (carriedA v0 v1 ch k0_t1_loop.trips).2.2 (ix3 (0 : Fin 1) (0 : Fin 1) f)
      = online (fun j : Fin 8 => chunkScore v0 v1 (ch (Fin.cast tripsA.symm j))) (fun j : Fin 8 => chunkRows (ch (Fin.cast tripsA.symm j))) f := by
  rw [quotient_apply]
  unfold online
  have e := entries_carriedA v0 v1 ch k0_t1_loop.trips
  rw [after_cast tripsA] at e
  have e8 := e.trans (congrArg (after (fun j : Fin 8 => chunkScore v0 v1 (ch (Fin.cast tripsA.symm j)))
    (fun j : Fin 8 => chunkRows (ch (Fin.cast tripsA.symm j)))) tripsA)
  rw [← e8]
  rfl

/-- And for the second graph. -/
theorem stored_B (v0 : FVec Ideal S256x1 .f32) (v1 : FVec Ideal S1 .f32)
    (ch : Fin k0_t2_loop.trips → FVec Ideal S1024x256 .f32) (f : Fin 256) :
    k0_pay20 (F := Ideal) (carriedB v0 v1 ch k0_t2_loop.trips).2.1 (carriedB v0 v1 ch k0_t2_loop.trips).2.2 (ix3 (0 : Fin 1) (0 : Fin 1) f)
      = online (fun j : Fin 8 => chunkScore v0 v1 (ch (Fin.cast tripsB.symm j))) (fun j : Fin 8 => chunkRows (ch (Fin.cast tripsB.symm j))) f := by
  rw [pay20_eq, quotient_apply]
  unfold online
  have e := entries_carriedB v0 v1 ch k0_t2_loop.trips
  rw [after_cast tripsB] at e
  have e8 := e.trans (congrArg (after (fun j : Fin 8 => chunkScore v0 v1 (ch (Fin.cast tripsB.symm j)))
    (fun j : Fin 8 => chunkRows (ch (Fin.cast tripsB.symm j)))) tripsB)
  rw [← e8]
  rfl

end Cert.KernelIdeal.Pool

end
-- ==== Proof.PoolLaunchIdeal.lean ====
/-
  The launch of the pooling kernel of the idealized kernel program: the contents of every window's buffer point by point, the body's
  obligation at a point, and the run of the whole program around the region.

  The grid has 16 points; point `t` fetches graphs `2t` and `2t + 1` of the node array and writes rows `2t`, `2t + 1`
  of the output array back. The weight column and the bias are fetched once and stay. The body's two stores tile the
  output block, so what the block holds after the body is a function of the point's three input blocks alone. After
  the region the host reshapes the output array `[32, 1, 256]` to `[32, 256]`.
-/
import proofs.«168193_j54571854463410_2_alg».proof.Proof.PoolBodyIdeal

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The output block after the body -/

/-- The body's two stores tile the output block (graph 0's row, then graph 1's), so they cover it. -/
theorem body_cover (c : Dev nD) (i : grid0.Coords)
    (arg1 : Memref sig .tc .vmem S2x8192x256 .f32) (harg1 : arg1.IsWhole)
    (arg2 : Memref sig .tc .vmem S256x1 .f32) (harg2 : arg2.IsWhole)
    (arg3 : Memref sig .tc .vmem S1 .f32) (harg3 : arg3.IsWhole)
    (arg4 : Memref sig .tc .vmem S2x1x256 .f32) (harg4 : arg4.IsWhole)
    (x : Vec F S2x8192x256 .f32) (w : Vec F S256x1 .f32) (b : Vec F S1 .f32) (y : S2x1x256.Idx) :
    ∃ pc ∈ (bodyRun c i arg1 harg1 arg2 harg2 arg3 harg3 arg4 harg4 x w b).1, y ∈ pc.1.set :=
  View.cover_of_tiledL (bodyRun c i arg1 harg1 arg2 harg2 arg3 harg3 arg4 harg4 x w b).1 S1x1x256.size (by sl_kernel_rfl) y

/-- What the body leaves in the output block: its two pieces read back (over anything: they cover the block). -/
def outAt (c : Dev nD) (i : grid0.Coords)
    (arg1 : Memref sig .tc .vmem S2x8192x256 .f32) (harg1 : arg1.IsWhole)
    (arg2 : Memref sig .tc .vmem S256x1 .f32) (harg2 : arg2.IsWhole)
    (arg3 : Memref sig .tc .vmem S1 .f32) (harg3 : arg3.IsWhole)
    (arg4 : Memref sig .tc .vmem S2x1x256 .f32) (harg4 : arg4.IsWhole)
    (x : Vec F S2x8192x256 .f32) (w : Vec F S256x1 .f32) (b : Vec F S1 .f32) : Vec F S2x1x256 .f32 :=
  outView.read (Elt F) (outView.writes (Elt F) outView.junk (bodyRun c i arg1 harg1 arg2 harg2 arg3 harg3 arg4 harg4 x w b).1)

/-! ## The contents of every window's buffer, point by point -/

/-- On core `c`: the arrays as the region finds them; after the body at point `t` each input's buffer still at its
    block, the output's at the body's two pieces computed from the point's three input blocks; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt c (grid0.coords t) (bufX t) (bufX_whole t) (bufW t) (bufW_whole t) (bufB t) (bufB_whole t) (bufO t) (bufO_whole t)
        (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_b (c : Dev nD) (t : Fin cfg0.N) : (dats m 0 c).after 2 t = iblk m c 2 t := by dsimp only [dats]
theorem after_o (c : Dev nD) (t : Fin cfg0.N) : (dats m 0 c).after 3 t =
    outAt c (grid0.coords t) (bufX t) (bufX_whole t) (bufW t) (bufW_whole t) (bufB t) (bufB_whole t) (bufO t) (bufO_whole t)
      (iblk m c 0 t) (iblk m c 1 t) (iblk m c 2 t) := by dsimp only [dats]

/-- Each input's current buffer holds its block at every point, whether fetched there or kept from an earlier one. -/
theorem before_x (c : Dev nD) (t : Fin cfg0.N) (d) : (dats m 0 c).before 0 t d = iblk m c 0 t :=
  before0_0_of m (dats m 0 c) (A_eq m c 0) (after_x m c) t d
theorem before_w (c : Dev nD) (t : Fin cfg0.N) (d) : (dats m 0 c).before 1 t d = iblk m c 1 t :=
  before0_1_of m (dats m 0 c) (A_eq m c 1) (after_w m c) t d
theorem before_b (c : Dev nD) (t : Fin cfg0.N) (d) : (dats m 0 c).before 2 t d = iblk m c 2 t :=
  before0_2_of m (dats m 0 c) (A_eq m c 2) (after_b m c) t d

/-! ## The body at a point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (bufX t) fullShare ((dats m 0 c).before 0 t d))
    ∗ (∃ d, owns (c : Thread nD τ) (bufW t) fullShare ((dats m 0 c).before 1 t d))
    ∗ (∃ d, owns (c : Thread nD τ) (bufB t) fullShare ((dats m 0 c).before 2 t d))
    ∗ (∃ d, owns (c : Thread nD τ) (bufO t) fullShare ((dats m 0 c).before 3 t d)))

/-- and what it hands back. -/
def bodyPost (c : Dev nD) (t : Fin cfg0.N) : sProp 𝕄 :=
  iprop((dats m 0 c).Φ t.succ ∗ (dats m 0 c).owesAt () t.succ
    ∗ owns (c : Thread nD τ) (bufX t) fullShare ((dats m 0 c).after 0 t)
    ∗ owns (c : Thread nD τ) (bufW t) fullShare ((dats m 0 c).after 1 t)
    ∗ owns (c : Thread nD τ) (bufB t) fullShare ((dats m 0 c).after 2 t)
    ∗ owns (c : Thread nD τ) (bufO t) fullShare ((dats m 0 c).after 3 t))

set_option maxHeartbeats 1000000 in
/-- The body at any point: the inputs' buffers hold their blocks, so the run applies; what it leaves in the output
    buffer reads back as the two pieces because they cover the block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_w, before_b]
  rw [show (dats m 0 c).Φ t.succ = (dats m 0 c).Φ t.castSucc from rfl,
    show (dats m 0 c).owesAt () t.succ = (dats m 0 c).owesAt () t.castSucc from rfl,
    after_x, after_w, after_b, after_o]
  unfold outAt
  iintro ⟨HΦ, Ho, ⟨%d0, H0⟩, ⟨%d1, H1⟩, ⟨%d2, H2⟩, ⟨%d3, H3⟩⟩
  iapply ((bodyRun c (grid0.coords t) _ _ _ _ _ _ _ _ (iblk m c 0 t) (iblk m c 1 t) (iblk m c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (body_cover c _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run around the region -/

set_option backward.isDefEq.respectTransparency.types false in
/-- Every weakly fair execution of the program terminates without a fault; afterwards every array of the region is
    what the window contents above make it, and the reshaped result is the host reshape of the output array. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program terminates, faults nowhere, and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Pool

end
-- ==== Proof.PoolBlockIdeal.lean ====
/-
  What the body reads at a grid point, as entries of the three argument arrays, and what it stores, as the pooling
  function of those arrays.

  At point `t` the node block is graphs `2t` and `2t + 1` of the node array; chunk `k` of the block's slab `r` is rows
  `1024 k … 1024 k + 1023` of graph `2t + r`; the weight column and the bias are their whole arrays. So the chunk
  scores the body forms are the specification's scores of graph `2t + r`, its chunk rows the specification's rows, and —
  the arrays being finite — the quotient it stores for the graph is the attention pooling of the graph.
-/
import proofs.«168193_j54571854463410_2_alg».proof.Proof.PoolTripIdeal
import proofs.«168193_j54571854463410_2_alg».proof.Proof.PoolLaunchIdeal
import Idealize.ShloMosaic.Lib.WholeRead
import Idealize.ShloMosaic.Lib.ValueLayout

set_option maxRecDepth 16384

noncomputable section

open scoped BigOperators

namespace Cert.KernelIdeal.Pool

open Cert.KernelIdeal Cert.KernelIdeal.Gen
open Idealize.ShloMosaic Idealize.ShloMosaic.TcCoe Idealize.ShloMosaic.ValueIdx
open Idealize.ShloMosaic.Pipeline (Dat Cfg Window)
open Cert.PoolSpec (pooled pooledAt score rows node online online_eq_pooled)

/-! ## Loads through whole buffers -/

section Loads
variable {F : FTy → Type} [FloatOps F]

/-- Row `i` of chunk `k` of a graph is its node `1024 k + i`. -/
def nodeRowA (k : Fin k0_t1_loop.trips) (i : Fin 1024) : Fin 8192 :=
  ⟨1024 * k.val + i.val, by have := k.isLt; have := k0_t1_abs.2.1; omega⟩
def nodeRowB (k : Fin k0_t2_loop.trips) (i : Fin 1024) : Fin 8192 :=
  ⟨1024 * k.val + i.val, by have := k.isLt; have := k0_t2_abs.2.1; omega⟩

/-- Chunk `k` of the first graph of a node block `x`: rows `1024 k + i` of slab 0. -/
theorem chunkA_apply (arg1 : Memref sig .tc .vmem S2x8192x256 .f32) (harg1 : arg1.IsWhole) (x : Vec F S2x8192x256 .f32)
    (k : Fin k0_t1_loop.trips) (i : Fin 1024) (f : Fin 256) :
    chunkA arg1 harg1 x k (ix2 i f) = x (ix3 (0 : Fin 2) (nodeRowA k i) f) := by
  unfold chunkA
  refine (congrFun (harg1.read_unread x) _).trans (congrArg x ?_)
  have h1 : (Rect.unit (s := S8192x256) (k0_off1 k) S1024x256.size (k0_off1_inb k)).idx (ix2 i f) = ix2 (nodeRowA k i) f :=
    funext fun a => Fin.ext (by
      match a with
      | ⟨0, _⟩ => show k0_off1 k 0 + 1 * i.val = 1024 * k.val + i.val; rw [k0_off1_eq]; simp
      | ⟨1, _⟩ => show k0_off1 k 1 + 1 * f.val = f.val; rw [k0_off1_eq]; simp)
  rw [h1]
  refine (congrArg (Rect.emb _) (reshapeEquiv_ix2_1ab _ (nodeRowA k i) f)).trans ?_
  exact funext fun a => Fin.ext (by
    match a with
    | ⟨0, _⟩ => rfl
    | ⟨1, _⟩ => show 0 + 1 * (nodeRowA k i).val = (nodeRowA k i).val; omega
    | ⟨2, _⟩ => show 0 + 1 * f.val = f.val; omega)

/-- Chunk `k` of the second graph: the same rows of slab 1. -/
theorem chunkB_apply (arg1 : Memref sig .tc .vmem S2x8192x256 .f32) (harg1 : arg1.IsWhole) (x : Vec F S2x8192x256 .f32)
    (k : Fin k0_t2_loop.trips) (i : Fin 1024) (f : Fin 256) :
    chunkB arg1 harg1 x k (ix2 i f) = x (ix3 (1 : Fin 2) (nodeRowB k i) f) := by
  unfold chunkB
  refine (congrFun (harg1.read_unread x) _).trans (congrArg x ?_)
  have h1 : (Rect.unit (s := S8192x256) (k0_off2 k) S1024x256.size (k0_off2_inb k)).idx (ix2 i f) = ix2 (nodeRowB k i) f :=
    funext fun a => Fin.ext (by
      match a with
      | ⟨0, _⟩ => show k0_off2 k 0 + 1 * i.val = 1024 * k.val + i.val; rw [k0_off2_eq]; simp
      | ⟨1, _⟩ => show k0_off2 k 1 + 1 * f.val = f.val; rw [k0_off2_eq]; simp)
  rw [h1]
  refine (congrArg (Rect.emb _) (reshapeEquiv_ix2_1ab _ (nodeRowB k i) f)).trans ?_
  exact funext fun a => Fin.ext (by
    match a with
    | ⟨0, _⟩ => show 1 + 1 * 0 = 1; rfl
    | ⟨1, _⟩ => show 0 + 1 * (nodeRowB k i).val = (nodeRowB k i).val; omega
    | ⟨2, _⟩ => show 0 + 1 * f.val = f.val; omega)

/-- The weight column and the bias as loaded are the buffers' contents. -/
theorem loadedW_eq (arg2 : Memref sig .tc .vmem S256x1 .f32) (harg2 : arg2.IsWhole) (w : Vec F S256x1 .f32) :
    loadedW arg2 harg2 w = w := by
  unfold loadedW
  funext y
  refine (harg2.readAt_unread w _ y).trans (congrArg w (funext fun a => Fin.ext ?_))
  match a with
  | ⟨0, _⟩ => show 0 + 1 * (y 0).val = (y 0).val; omega
  | ⟨1, _⟩ => show 0 + 1 * (y 1).val = (y 1).val; omega

theorem loadedB_eq (arg3 : Memref sig .tc .vmem S1 .f32) (harg3 : arg3.IsWhole) (b : Vec F S1 .f32) :
    loadedB arg3 harg3 b = b := by
  unfold loadedB
  funext y
  refine (harg3.readAt_unread b _ y).trans (congrArg b (funext fun a => Fin.ext ?_))
  match a with
  | ⟨0, _⟩ => show 0 + 1 * (y 0).val = (y 0).val; omega

end Loads

/-! ## The point's blocks as entries of the arrays -/

section Point

variable (m : (ℓ : Loc nD τ sig) → Buf (Elt Ideal) ℓ)

/-- The windows' block indices at point `t`, decided over the sixteen points: the node window and the output window
    move along the first axis with the point, the weight column's and the bias's stay. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 3) = t.val ∧ win0_3.index t (1 : Fin 3) = 0 ∧ win0_3.index t (2 : Fin 3) = 0 :=
  (by decide +kernel : ∀ t : Fin grid0.N, _)

/-- Slab `r` of point `t`'s node block is graph `2 t + r`. -/
def graphOf (t : Fin cfg0.N) (r : Fin 2) : Fin 32 :=
  ⟨2 * t.val + r.val, by have := t.isLt; have h : cfg0.N = 16 := N_0; omega⟩

/-- The three argument arrays as the region finds them. -/
abbrev arrX (c : Dev nD) : Cert.PoolSpec.SX.Idx → EReal := V m c main_arg0
abbrev arrW (c : Dev nD) : Cert.PoolSpec.SW.Idx → EReal := V m c main_arg1
abbrev arrB (c : Dev nD) : Cert.PoolSpec.SB.Idx → EReal := V m c main_arg2

theorem iblk_x (c : Dev nD) (t : Fin cfg0.N) (r : Fin 2) (n : Fin 8192) (f : Fin 256) :
    (iblk m c 0 t : Vec Ideal S2x8192x256 .f32) (ix3 r n f) = arrX m c (ix3 (graphOf t r) n f) := by
  obtain ⟨h0, h1, h2, -⟩ := idx_facts t
  show V m c main_arg0 (((cfg0.win 0).blk t).view.emb (ix3 r n f)) = V m c main_arg0 (ix3 (graphOf t r) n f)
  refine congrArg _ (funext fun a => Fin.ext ?_)
  match a with
  | ⟨0, _⟩ => show win0_0.index t (0 : Fin 3) * 2 + 1 * r.val = 2 * t.val + r.val; rw [h0]; omega
  | ⟨1, _⟩ => show win0_0.index t (1 : Fin 3) * 8192 + 1 * n.val = n.val; rw [h1]; omega
  | ⟨2, _⟩ => show win0_0.index t (2 : Fin 3) * 256 + 1 * f.val = f.val; rw [h2]; omega

theorem iblk_w (c : Dev nD) (t : Fin cfg0.N) (f : Fin 256) (u : Fin 1) :
    (iblk m c 1 t : Vec Ideal S256x1 .f32) (ix2 f u) = arrW m c (ix2 f u) := by
  obtain ⟨-, -, -, h0, h1, -⟩ := idx_facts t
  show V m c main_arg1 (((cfg0.win 1).blk t).view.emb (ix2 f u)) = V m c main_arg1 (ix2 f u)
  refine congrArg _ (funext fun a => Fin.ext ?_)
  match a with
  | ⟨0, _⟩ => show win0_1.index t (0 : Fin 2) * 256 + 1 * f.val = f.val; rw [h0]; omega
  | ⟨1, _⟩ => show win0_1.index t (1 : Fin 2) * 1 + 1 * u.val = u.val; rw [h1]; omega

theorem iblk_b (c : Dev nD) (t : Fin cfg0.N) (u : Fin 1) :
    (iblk m c 2 t : Vec Ideal S1 .f32) (ix1 u) = arrB m c (ix1 u) := by
  obtain ⟨-, -, -, -, -, h0, -⟩ := idx_facts t
  show V m c main_arg2 (((cfg0.win 2).blk t).view.emb (ix1 u)) = V m c main_arg2 (ix1 u)
  refine congrArg _ (funext fun a => Fin.ext ?_)
  match a with
  | ⟨0, _⟩ => show win0_2.index t (0 : Fin 1) * 1 + 1 * u.val = u.val; rw [h0]; omega

/-! ## The chunks' scores and rows are the graphs' -/

/-- What the body holds of the weight column and the bias at point `t`. -/
abbrev wAt (c : Dev nD) (t : Fin cfg0.N) : FVec Ideal S256x1 .f32 := loadedW (bufW t) (bufW_whole t) (iblk m c 1 t)
abbrev bAt (c : Dev nD) (t : Fin cfg0.N) : FVec Ideal S1 .f32 := loadedB (bufB t) (bufB_whole t) (iblk m c 2 t)
/-- The chunks of the two graphs of point `t`. -/
abbrev chunksA (c : Dev nD) (t : Fin cfg0.N) : Fin k0_t1_loop.trips → FVec Ideal S1024x256 .f32 :=
  chunkA (bufX t) (bufX_whole t) (iblk m c 0 t)
abbrev chunksB (c : Dev nD) (t : Fin cfg0.N) : Fin k0_t2_loop.trips → FVec Ideal S1024x256 .f32 :=
  chunkB (bufX t) (bufX_whole t) (iblk m c 0 t)

theorem score_A (c : Dev nD) (t : Fin cfg0.N) (k : Fin 8) (i : Fin 1024) :
    chunkScore (wAt m c t) (bAt m c t) (chunksA m c t (Fin.cast tripsA.symm k)) i
      = score (arrX m c) (arrW m c) (arrB m c) (graphOf t 0) k i := by
  unfold chunkScore score
  dsimp only [wAt, bAt, chunksA, chunksB]
  rw [loadedW_eq, loadedB_eq, iblk_b]
  refine congrArg (· + _) (Finset.sum_congr rfl fun f _ => ?_)
  rw [chunkA_apply, iblk_x, iblk_w]
  rfl

theorem score_B (c : Dev nD) (t : Fin cfg0.N) (k : Fin 8) (i : Fin 1024) :
    chunkScore (wAt m c t) (bAt m c t) (chunksB m c t (Fin.cast tripsB.symm k)) i
      = score (arrX m c) (arrW m c) (arrB m c) (graphOf t 1) k i := by
  unfold chunkScore score
  dsimp only [wAt, bAt, chunksA, chunksB]
  rw [loadedW_eq, loadedB_eq, iblk_b]
  refine congrArg (· + _) (Finset.sum_congr rfl fun f _ => ?_)
  rw [chunkB_apply, iblk_x, iblk_w]
  rfl

theorem rows_A (c : Dev nD) (t : Fin cfg0.N) (k : Fin 8) (i : Fin 1024) (f : Fin 256) :
    chunkRows (chunksA m c t (Fin.cast tripsA.symm k)) i f = rows (arrX m c) (graphOf t 0) k i f := by
  unfold chunkRows rows
  dsimp only [chunksA]
  rw [chunkA_apply, iblk_x]
  rfl

theorem rows_B (c : Dev nD) (t : Fin cfg0.N) (k : Fin 8) (i : Fin 1024) (f : Fin 256) :
    chunkRows (chunksB m c t (Fin.cast tripsB.symm k)) i f = rows (arrX m c) (graphOf t 1) k i f := by
  unfold chunkRows rows
  dsimp only [chunksB]
  rw [chunkB_apply, iblk_x]
  rfl

/-! ## Finite arrays have finite scores and rows -/

theorem score_real {X : Cert.PoolSpec.SX.Idx → EReal} {W : Cert.PoolSpec.SW.Idx → EReal} {Bb : Cert.PoolSpec.SB.Idx → EReal}
    (hX : ∀ j, ∃ r : ℝ, X j = (r : EReal)) (hW : ∀ j, ∃ r : ℝ, W j = (r : EReal)) (hB : ∀ j, ∃ r : ℝ, Bb j = (r : EReal))
    (g : Fin 32) (k : Fin 8) (i : Fin 1024) : ∃ r : ℝ, score X W Bb g k i = (r : EReal) := by
  choose xr hxr using hX; choose wr hwr using hW; choose br hbr using hB
  refine ⟨(∑ f : Fin 256, xr (ix3 g (node k i) f) * wr (ix2 f (0 : Fin 1))) + br (ix1 (0 : Fin 1)), ?_⟩
  unfold score
  rw [EReal.coe_add, Cert.PoolSpec.coe_finset_sum, hbr]
  exact congrArg (· + _) (Finset.sum_congr rfl fun f _ => by rw [hxr, hwr, EReal.coe_mul])

theorem rows_real {X : Cert.PoolSpec.SX.Idx → EReal} (hX : ∀ j, ∃ r : ℝ, X j = (r : EReal))
    (g : Fin 32) (k : Fin 8) (i : Fin 1024) (f : Fin 256) : ∃ r : ℝ, rows X g k i f = (r : EReal) := hX _

/-! ## What the body stores for each graph -/

/-- The quotient stored for the first graph of point `t` is the pooling of graph `2 t`, -/
theorem stored_graphA (c : Dev nD) (t : Fin cfg0.N)
    (hX : ∀ j, ∃ r : ℝ, arrX m c j = (r : EReal)) (hW : ∀ j, ∃ r : ℝ, arrW m c j = (r : EReal)) (hB : ∀ j, ∃ r : ℝ, arrB m c j = (r : EReal))
    (f : Fin 256) :
    k0_pay10 (F := Ideal) (carriedA (wAt m c t) (bAt m c t) (chunksA m c t) k0_t1_loop.trips).2.1
        (carriedA (wAt m c t) (bAt m c t) (chunksA m c t) k0_t1_loop.trips).2.2 (ix3 (0 : Fin 1) (0 : Fin 1) f)
      = pooledAt (arrX m c) (arrW m c) (arrB m c) (graphOf t 0) f := by
  rw [stored_A]
  have hs : (fun j : Fin 8 => chunkScore (wAt m c t) (bAt m c t) (chunksA m c t (Fin.cast tripsA.symm j)))
      = score (arrX m c) (arrW m c) (arrB m c) (graphOf t 0) := funext fun k => funext fun i => score_A m c t k i
  have hr : (fun j : Fin 8 => chunkRows (chunksA m c t (Fin.cast tripsA.symm j)))
      = rows (arrX m c) (graphOf t 0) := funext fun k => funext fun i => funext fun f => rows_A m c t k i f
  rw [hs, hr]
  exact online_eq_pooled (by norm_num) _ _ (score_real hX hW hB _) (rows_real hX _) f

/-- and for the second, of graph `2 t + 1`. -/
theorem stored_graphB (c : Dev nD) (t : Fin cfg0.N)
    (hX : ∀ j, ∃ r : ℝ, arrX m c j = (r : EReal)) (hW : ∀ j, ∃ r : ℝ, arrW m c j = (r : EReal)) (hB : ∀ j, ∃ r : ℝ, arrB m c j = (r : EReal))
    (f : Fin 256) :
    k0_pay20 (F := Ideal) (carriedB (wAt m c t) (bAt m c t) (chunksB m c t) k0_t2_loop.trips).2.1
        (carriedB (wAt m c t) (bAt m c t) (chunksB m c t) k0_t2_loop.trips).2.2 (ix3 (0 : Fin 1) (0 : Fin 1) f)
      = pooledAt (arrX m c) (arrW m c) (arrB m c) (graphOf t 1) f := by
  rw [stored_B]
  have hs : (fun j : Fin 8 => chunkScore (wAt m c t) (bAt m c t) (chunksB m c t (Fin.cast tripsB.symm j)))
      = score (arrX m c) (arrW m c) (arrB m c) (graphOf t 1) := funext fun k => funext fun i => score_B m c t k i
  have hr : (fun j : Fin 8 => chunkRows (chunksB m c t (Fin.cast tripsB.symm j)))
      = rows (arrX m c) (graphOf t 1) := funext fun k => funext fun i => funext fun f => rows_B m c t k i f
  rw [hs, hr]
  exact online_eq_pooled (by norm_num) _ _ (score_real hX hW hB _) (rows_real hX _) f

end Point

end Cert.KernelIdeal.Pool

end
-- ==== Proof.PoolFinalIdeal.lean ====
/-
  The output array after the region, and the program's result.

  At point `t` the body's two stores leave in the output block the pooling of graphs `2t` and `2t + 1`; that block is
  rows `2t`, `2t + 1` of the output array `[32, 1, 256]`, and the sixteen blocks tile it, so after the region the array
  holds, at `(g, 0, f)`, the pooling of graph `g` at feature `f`. The host then reshapes it to `[32, 256]`: the pooling
  function `G` of the three argument arrays.
-/
import proofs.«168193_j54571854463410_2_alg».proof.Proof.PoolBlockIdeal
import Idealize.ShloMosaic.Lib.StableHlo.Run

set_option maxRecDepth 16384

noncomputable section

open scoped BigOperators

namespace Cert.KernelIdeal.Pool

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.PoolSpec (pooled pooledAt score rows node)

variable (m : (ℓ : Loc nD τ sig) → Buf (Elt Ideal) ℓ) (ρ : Dev nD → PrngReg)

/-! ## The output block at a point -/

/-- The body's two pieces: the second graph's quotient into slab 1, then the first graph's into slab 0. -/
theorem pieces_eq (c : Dev nD) (i : grid0.Coords)
    (arg1 : Memref sig .tc .vmem S2x8192x256 .f32) (harg1 : arg1.IsWhole)
    (arg2 : Memref sig .tc .vmem S256x1 .f32) (harg2 : arg2.IsWhole)
    (arg3 : Memref sig .tc .vmem S1 .f32) (harg3 : arg3.IsWhole)
    (arg4 : Memref sig .tc .vmem S2x1x256 .f32) (harg4 : arg4.IsWhole)
    (x : Vec Ideal S2x8192x256 .f32) (w : Vec Ideal S256x1 .f32) (b : Vec Ideal S1 .f32) :
    (bodyRun c i arg1 harg1 arg2 harg2 arg3 harg3 arg4 harg4 x w b).1 =
      [⟨Rect.unit (s := S2x1x256) ![1, 0, 0] S1x1x256.size inb_S2x1x256_S1x1x256_1_0_0,
          k0_pay20 (carriedB (loadedW arg2 harg2 w) (loadedB arg3 harg3 b) (chunkB arg1 harg1 x) k0_t2_loop.trips).2.1
                   (carriedB (loadedW arg2 harg2 w) (loadedB arg3 harg3 b) (chunkB arg1 harg1 x) k0_t2_loop.trips).2.2⟩,
       ⟨Rect.unit (s := S2x1x256) ![0, 0, 0] S1x1x256.size inb_S2x1x256_S1x1x256_0_0_0,
          k0_pay10 (carriedA (loadedW arg2 harg2 w) (loadedB arg3 harg3 b) (chunkA arg1 harg1 x) k0_t1_loop.trips).2.1
                   (carriedA (loadedW arg2 harg2 w) (loadedB arg3 harg3 b) (chunkA arg1 harg1 x) k0_t1_loop.trips).2.2⟩] := by
  unfold bodyRun
  rfl

/-- The output array the region leaves: at `(g, 0, f)` the pooling of graph `g`, feature `f`. -/
def outArr (c : Dev nD) : S32x1x256.Idx → EReal :=
  fun j => pooledAt (arrX m c) (arrW m c) (arrB m c) (j 0) (j 2)

/-- What the body leaves in the output block at point `t` is block `t` of that array. -/
theorem after_o_eq (c : Dev nD) (t : Fin cfg0.N)
    (hX : ∀ j, ∃ r : ℝ, arrX m c j = (r : EReal)) (hW : ∀ j, ∃ r : ℝ, arrW m c j = (r : EReal)) (hB : ∀ j, ∃ r : ℝ, arrB m c j = (r : EReal)) :
    (dats m 0 c).after 3 t = ((cfg0.win 3).blk t).view.read (Elt Ideal) (outArr m c) := by
  rw [after_o]
  unfold outAt
  obtain ⟨-, -, -, -, -, -, h0, h1, h2⟩ := idx_facts t
  funext y
  refine (View.read_writes_apply_of_pieces outView outView.junk (fun y => outArr m c (((cfg0.win 3).blk t).view.emb y)) _ ?_ y
    (body_cover c _ _ _ _ _ _ _ _ _ _ _ _ y)).trans rfl
  intro p hp x'
  rw [pieces_eq] at hp
  simp only [List.mem_cons, List.mem_nil_iff, or_false] at hp
  rcases hp with rfl | rfl
  · obtain ⟨u, v, f, rfl⟩ : ∃ (u : Fin 1) (v : Fin 1) (f : Fin 256), x' = ix3 u v f := ⟨x' 0, x' 1, x' 2, eq_ix3 x'⟩
    obtain rfl : u = 0 := Subsingleton.elim _ _
    obtain rfl : v = 0 := Subsingleton.elim _ _
    refine (stored_graphB m c t hX hW hB f).trans ?_
    unfold outArr
    refine congrArg₂ (pooledAt (arrX m c) (arrW m c) (arrB m c)) (Fin.ext ?_) (Fin.ext ?_)
    · show 2 * t.val + 1 = win0_3.index t (0 : Fin 3) * 2 + 1 * (1 + 1 * 0); rw [h0]; omega
    · show f.val = win0_3.index t (2 : Fin 3) * 256 + 1 * (0 + 1 * f.val); rw [h2]; omega
  · obtain ⟨u, v, f, rfl⟩ : ∃ (u : Fin 1) (v : Fin 1) (f : Fin 256), x' = ix3 u v f := ⟨x' 0, x' 1, x' 2, eq_ix3 x'⟩
    obtain rfl : u = 0 := Subsingleton.elim _ _
    obtain rfl : v = 0 := Subsingleton.elim _ _
    refine (stored_graphA m c t hX hW hB f).trans ?_
    unfold outArr
    refine congrArg₂ (pooledAt (arrX m c) (arrW m c) (arrB m c)) (Fin.ext ?_) (Fin.ext ?_)
    · show 2 * t.val + 0 = win0_3.index t (0 : Fin 3) * 2 + 1 * (0 + 1 * 0); rw [h0]; omega
    · show f.val = win0_3.index t (2 : Fin 3) * 256 + 1 * (0 + 1 * f.val); rw [h2]; omega

/-! ## The blocks tile the output array -/

/-- An index of the output array is in point `t`'s block iff each coordinate is in the block's range on its axis. -/
theorem mem_blk (t : Fin cfg0.N) (i : S32x1x256.Idx) :
    i ∈ ((cfg0.win 3).blk t).view.set ↔ ∀ a : Fin 3, win0_3.index t a * S2x1x256.size a ≤ (i a).val ∧ (i a).val < win0_3.index t a * S2x1x256.size a + S2x1x256.size a := by
  show i ∈ ((View.whole main_call0_v0).slice (win0_3.rect t)).set ↔ _
  rw [View.set_slice_whole, Rect.mem_set_unit]
  exact Iff.rfl

/-- Row `g` of the output array is in the block of point `g / 2`, which is written back. -/
theorem out_cover (i : S32x1x256.Idx) :
    ∃ t : Fin cfg0.N, (cfg0.win 3).flush t = true ∧ i ∈ ((cfg0.win 3).blk t).view.set := by
  have hi0 : (i 0).val < 32 := (i 0).isLt
  have hi1 : (i 1).val < 1 := (i 1).isLt
  have hi2 : (i 2).val < 256 := (i 2).isLt
  have hN : cfg0.N = 16 := N_0
  refine ⟨⟨(i 0).val / 2, by omega⟩, flush0_3 _, ?_⟩
  obtain ⟨-, -, -, -, -, -, h0, h1, h2⟩ := idx_facts ⟨(i 0).val / 2, by omega⟩
  rw [mem_blk]
  intro a
  match a with
  | ⟨0, _⟩ => show win0_3.index _ (0 : Fin 3) * 2 ≤ (i 0).val ∧ (i 0).val < win0_3.index _ (0 : Fin 3) * 2 + 2; rw [h0]; show (i 0).val / 2 * 2 ≤ (i 0).val ∧ (i 0).val < (i 0).val / 2 * 2 + 2; omega
  | ⟨1, _⟩ => show win0_3.index _ (1 : Fin 3) * 1 ≤ (i 1).val ∧ (i 1).val < win0_3.index _ (1 : Fin 3) * 1 + 1; rw [h1]; omega
  | ⟨2, _⟩ => show win0_3.index _ (2 : Fin 3) * 256 ≤ (i 2).val ∧ (i 2).val < win0_3.index _ (2 : Fin 3) * 256 + 256; rw [h2]; omega

/-- THE OUTPUT ARRAY after the region. -/
theorem final_out (c : Dev nD)
    (hX : ∀ j, ∃ r : ℝ, arrX m c j = (r : EReal)) (hW : ∀ j, ∃ r : ℝ, arrW m c j = (r : EReal)) (hB : ∀ j, ∃ r : ℝ, arrB m c j = (r : EReal)) :
    (dats m 0 c).arrAt 3 cfg0.N = outArr m c :=
  (dats m 0 c).arrAt_eq_of_cover 3 (outArr m c) (fun t _ => after_o_eq m c t hX hW hB) out_cover

/-! ## The host reshape -/

/-- The program's result: the output array with its unit axis dropped, which is `G` of the argument arrays. -/
theorem tail_value (c : Dev nD)
    (hX : ∀ j, ∃ r : ℝ, arrX m c j = (r : EReal)) (hW : ∀ j, ∃ r : ℝ, arrW m c j = (r : EReal)) (hB : ∀ j, ∃ r : ℝ, arrB m c j = (r : EReal)) :
    Pipeline.afterTail₀ cfgs (dats m) 0 (V0 m) [hostOps1] c main_v0 = Cert.PoolSpec.G (arrX m c) (arrW m c) (arrB m c) := by
  unfold Pipeline.afterTail₀
  show StableHlo.after hostOps1 _ (Proc.devRef .tc main_v0) = _
  after_results
  funext j
  obtain ⟨g, f, rfl⟩ : ∃ (g : Fin 32) (f : Fin 256), j = ix2 g f := ⟨j 0, j 1, eq_ix2 j⟩
  show shapeCast S32x256 (Pipeline.withArrays (cfgs 0).spec c (V0 m c) (fun w => (dats m 0 c).arrAt w (cfgs 0).N)
      (Proc.devRef .tc main_call0_v0)) shapeCasts_S32x1x256_S32x256 (ix2 g f) = _
  rw [show Pipeline.withArrays (cfgs 0).spec c (V0 m c) (fun w => (dats m 0 c).arrAt w (cfgs 0).N) (Proc.devRef .tc main_call0_v0)
      = (dats m 0 c).arrAt 3 cfg0.N from Pipeline.withArrays_arr spec0 launch0.win.arr_inj c _ _ 3,
    final_out m c hX hW hB]
  rw [shapeCast_apply (outArr m c) shapeCasts_S32x1x256_S32x256 (ix2 g f) (ix3 g (0 : Fin 1) f) (by
    rw [Shape.rowMajor_val_three, Shape.rowMajor_val_two]
    show (g.val * 1 + 0) * 256 + f.val = g.val * 256 + f.val
    omega)]
  rfl

/-! ## The run, with the result named -/

/-- On finite argument arrays: every weakly fair execution of the program terminates without a fault, with the
    result `G` of the argument arrays and the arguments unchanged. -/
theorem run_value
    (hfin : ∀ c : Dev nD, (∀ j, ∃ r : ℝ, arrX m c j = (r : EReal)) ∧ (∀ j, ∃ r : ℝ, arrW m c j = (r : EReal)) ∧ (∀ j, ∃ r : ℝ, arrB m c j = (r : EReal))) :
    θ_run defs (onTc (τ := τ) (main (F := Ideal))) ⟨m, fun _ => 0, ρ⟩ (fun r => ∀ c : Dev nD,
      r.2.mem ((c.tc : Thread nD τ).loc main_v0)
          = Cert.PoolSpec.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
      ⟨((h c).2 main_v0 (by decide)).trans (tail_value m c (hfin c).1 (hfin c).2.1 (hfin c).2.2),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c))),
       ((h c).1 2).trans (((dats m 0 c).arrAt_in 2 rfl _).trans ((A_eq m c 2).trans (V_main_arg2 m c)))⟩)
    (run_main m ρ)

end Cert.KernelIdeal.Pool

end
-- ==== Proof.PoolRef.lean ====
/-
  The reference program's result, read as the pooling function of its three argument arrays.
-/
import proofs.«168193_j54571854463410_2_alg».proof.Proof.Gen.ReferenceIdeal.Run
import proofs.«168193_j54571854463410_2_alg».proof.Proof.Gen.ReferenceIdeal.Read
import proofs.«168193_j54571854463410_2_alg».proof.Proof.PoolSpec
import Idealize.ShloMosaic.Lib.ValueIdx
import Idealize.ShloMosaic.Lib.Pipeline.Value
import Idealize.ShloMosaic.PureOps.Ideal.Laws

noncomputable section

namespace Cert.PoolRef

open Cert.ReferenceIdeal Cert.ReferenceIdeal.Read Idealize.ShloMosaic Idealize.ShloMosaic.ValueIdx
open scoped BigOperators

/-! ## Nodes as (chunk, row) pairs -/

/-- Node `1024 k + i` is row `i` of chunk `k`: the pairs (chunk, row) are the 8192 nodes. -/
def nodeEquiv : Fin 8 × Fin 1024 ≃ Fin 8192 where
  toFun p := Cert.PoolSpec.node p.1 p.2
  invFun n := (⟨n.val / 1024, by have := n.isLt; omega⟩, ⟨n.val % 1024, by omega⟩)
  left_inv := by
    rintro ⟨k, i⟩
    refine Prod.ext (Fin.ext ?_) (Fin.ext ?_)
    · show (1024 * k.val + i.val) / 1024 = k.val
      have := i.isLt; omega
    · show (1024 * k.val + i.val) % 1024 = i.val
      have := i.isLt; omega
  right_inv := by
    intro n
    refine Fin.ext ?_
    show 1024 * (n.val / 1024) + n.val % 1024 = n.val
    omega

theorem nodeEquiv_apply (p : Fin 8 × Fin 1024) : nodeEquiv p = Cert.PoolSpec.node p.1 p.2 := rfl

/-- A maximum over the nodes is the maximum over the (chunk, row) pairs. -/
theorem sup_nodes (s : Fin 8192 → EReal) :
    (Finset.univ.sup fun p : Fin 8 × Fin 1024 => s (Cert.PoolSpec.node p.1 p.2)) = Finset.univ.sup s := by
  rw [Finset.sup_univ_eq_iSup, Finset.sup_univ_eq_iSup]
  exact Equiv.iSup_comp (g := s) nodeEquiv

/-- A sum over the nodes is the sum over the (chunk, row) pairs. -/
theorem sum_nodes (s : Fin 8192 → EReal) :
    (∑ p : Fin 8 × Fin 1024, s (Cert.PoolSpec.node p.1 p.2)) = ∑ n : Fin 8192, s n :=
  Equiv.sum_comp nodeEquiv s

/-- Pooling over (chunk, row) pairs, written over the nodes. -/
theorem pooled_nodes (s : Fin 8192 → EReal) (r : Fin 8192 → Fin 256 → EReal) (f : Fin 256) :
    Cert.PoolSpec.pooled (fun k i => s (Cert.PoolSpec.node k i)) (fun k i => r (Cert.PoolSpec.node k i)) f
      = ∑ n : Fin 8192, Ideal.div (Ideal.exp (s n - Finset.univ.sup s))
          (∑ m : Fin 8192, Ideal.exp (s m - Finset.univ.sup s)) * r n f := by
  unfold Cert.PoolSpec.pooled Cert.PoolSpec.mass Cert.PoolSpec.weight Cert.PoolSpec.top
  rw [sup_nodes s]
  rw [sum_nodes fun m => Ideal.exp (s m - Finset.univ.sup s)]
  exact sum_nodes fun n => Ideal.div (Ideal.exp (s n - Finset.univ.sup s))
          (∑ m : Fin 8192, Ideal.exp (s m - Finset.univ.sup s)) * r n f

/-- A fold of `max` from `⊥` is the supremum. -/
theorem fold_max_bot {ι : Type} (s : Finset ι) (g : ι → EReal) : s.fold max ⊥ g = s.sup g := by
  classical
  induction s using Finset.induction_on with
  | empty => simp
  | insert a s ha ih => rw [Finset.fold_insert ha, Finset.sup_insert, ih]

theorem ofBits_negInf : Ideal.ofBits .f32 0xFF800000#32 = (⊥ : EReal) := by
  simp [Ideal.ofBits, Ideal.ieee]

/-! ## The reference program, stage by stage, at explicit coordinates -/

section Stages

variable (x0 : (⟨Cert.ReferenceIdeal.S32x8192x256, .f32⟩ : BufTy).Contents (Elt Ideal))
  (x1 : (⟨Cert.ReferenceIdeal.S256x1, .f32⟩ : BufTy).Contents (Elt Ideal))
  (x2 : (⟨Cert.ReferenceIdeal.S1, .f32⟩ : BufTy).Contents (Elt Ideal))

/-- The score of node `n` of graph `B`: its row against the weight column, plus the bias. -/
theorem v3_at (B : Fin 32) (n : Fin 8192) :
    val_main_v3 (F := Ideal) x0 x1 x2 (ix3 B n (0 : Fin 1))
      = (∑ f : Fin 256, x0 (ix3 B n f) * x1 (ix2 f (0 : Fin 1))) + x2 (ix1 (0 : Fin 1)) := by
  rw [val_main_v3_apply, val_main_v0_apply, val_main_v2_apply, val_main_v1_apply]
  have e1 : ∀ k : Fin 256, lidx_main_v0 (ix3 B n (0 : Fin 1)) k = ix3 B n k := fun k =>
    funext fun a => Fin.ext (by match a with | ⟨0, _⟩ => rfl | ⟨1, _⟩ => rfl | ⟨2, _⟩ => rfl)
  have e2 : ∀ k : Fin 256, ridx_main_v0 (ix3 B n (0 : Fin 1)) k = ix2 k (0 : Fin 1) := fun k =>
    funext fun a => Fin.ext (by match a with | ⟨0, _⟩ => rfl | ⟨1, _⟩ => rfl)
  have e3 : idx_main_v1 (idx_main_v2 (ix3 B n (0 : Fin 1))) = ix1 (0 : Fin 1) :=
    funext fun a => Fin.ext (by match a with | ⟨0, _⟩ => rfl)
  simp only [e1, e2, e3, Ideal.addf_def]

/-- The reduced index `(B, 0)` with node `n` put back on the dropped axis is `(B, n, 0)`. -/
theorem lift_at (h : S32x8192x1.Reduces [1] S32x1) (B : Fin 32) (k : Fin (S32x8192x1.size 1)) :
    h.lift (ix2 B (0 : Fin 1)) k = ix3 B (⟨k.val, k.isLt⟩ : Fin 8192) (0 : Fin 1) := by
  funext c; apply Fin.ext
  fin_cases c <;> rfl

/-- The max-reduce over the nodes of graph `B`. -/
theorem v4_at (B : Fin 32) :
    val_main_v4 (F := Ideal) x0 x1 x2 (ix2 B (0 : Fin 1))
      = Finset.univ.sup fun n : Fin 8192 => val_main_v3 (F := Ideal) x0 x1 x2 (ix3 B n (0 : Fin 1)) := by
  have h : S32x8192x1.Reduces [1] S32x1 := by decide
  unfold val_main_v4
  rw [Host.reduce_eq_fold_single FloatOps.maximumf _ _ _ h]
  have hf : (val_main_v3 (F := Ideal) x0 x1 x2 ∘ h.lift (ix2 B (0 : Fin 1)))
      = fun n : Fin 8192 => val_main_v3 (F := Ideal) x0 x1 x2 (ix3 B n (0 : Fin 1)) :=
    funext fun k => congrArg (val_main_v3 (F := Ideal) x0 x1 x2) (lift_at h B k)
  rw [hf, val_main_cst_apply, Ideal.ofBits_def, ofBits_negInf]
  exact fold_max_bot Finset.univ _

/-- The largest score of graph `B` (the maximum with the initial `⊥` changes nothing). -/
theorem v6_at (B : Fin 32) :
    val_main_v6 (F := Ideal) x0 x1 x2 (ix2 B (0 : Fin 1))
      = Finset.univ.sup fun n : Fin 8192 => val_main_v3 (F := Ideal) x0 x1 x2 (ix3 B n (0 : Fin 1)) := by
  rw [val_main_v6_apply, val_main_v5_apply, val_main_cst_0_apply, v4_at, Ideal.ofBits_def, ofBits_negInf,
    Ideal.maximumf_def]
  exact max_eq_right bot_le

/-- A node's weight before normalisation. -/
theorem v10_at (B : Fin 32) (n : Fin 8192) :
    val_main_v10 (F := Ideal) x0 x1 x2 (ix3 B n (0 : Fin 1))
      = Ideal.exp (val_main_v3 (F := Ideal) x0 x1 x2 (ix3 B n (0 : Fin 1))
          - Finset.univ.sup fun m : Fin 8192 => val_main_v3 (F := Ideal) x0 x1 x2 (ix3 B m (0 : Fin 1))) := by
  rw [val_main_v10_apply, val_main_v9_apply, val_main_v8_apply, val_main_v7_apply]
  have e : idx_main_v7 (idx_main_v8 (ix3 B n (0 : Fin 1))) = ix2 B (0 : Fin 1) :=
    funext fun a => Fin.ext (by match a with | ⟨0, _⟩ => rfl | ⟨1, _⟩ => rfl)
  rw [e, v6_at, Ideal.hostUnary_exp_def, Ideal.subf_def]

/-- The total weight of graph `B`. -/
theorem v11_at (B : Fin 32) :
    val_main_v11 (F := Ideal) x0 x1 x2 (ix2 B (0 : Fin 1))
      = ∑ n : Fin 8192, val_main_v10 (F := Ideal) x0 x1 x2 (ix3 B n (0 : Fin 1)) := by
  rw [val_main_v11_apply, val_main_cst_1_apply, Ideal.ofBits_def, Ideal.ofBits_zero_f32, zero_add]
  have e : ∀ k : Fin 8192, idx_main_v11 (ix2 B (0 : Fin 1)) k = ix3 B k (0 : Fin 1) := fun k =>
    funext fun a => Fin.ext (by match a with | ⟨0, _⟩ => rfl | ⟨1, _⟩ => rfl | ⟨2, _⟩ => rfl)
  simp only [e]

/-- A node's normalised weight times its feature. -/
theorem v16_at (B : Fin 32) (n : Fin 8192) (f : Fin 256) :
    val_main_v16 (F := Ideal) x0 x1 x2 (ix3 B n f)
      = Ideal.div (val_main_v10 (F := Ideal) x0 x1 x2 (ix3 B n (0 : Fin 1)))
          (val_main_v11 (F := Ideal) x0 x1 x2 (ix2 B (0 : Fin 1))) * x0 (ix3 B n f) := by
  rw [val_main_v16_apply, val_main_v15_apply, val_main_v14_apply, val_main_v13_apply, val_main_v12_apply]
  have e1 : idx_main_v15 (ix3 B n f) = ix3 B n (0 : Fin 1) :=
    funext fun a => Fin.ext (by match a with | ⟨0, _⟩ => rfl | ⟨1, _⟩ => rfl | ⟨2, _⟩ => rfl)
  have e2 : idx_main_v12 (idx_main_v13 (ix3 B n (0 : Fin 1))) = ix2 B (0 : Fin 1) :=
    funext fun a => Fin.ext (by match a with | ⟨0, _⟩ => rfl | ⟨1, _⟩ => rfl)
  rw [e1, e2, Ideal.hostDivf_def, Ideal.mulf_def]

/-- The result at graph `B`, feature `f`. -/
theorem v17_at (B : Fin 32) (f : Fin 256) :
    val_main_v17 (F := Ideal) x0 x1 x2 (ix2 B f)
      = ∑ n : Fin 8192, val_main_v16 (F := Ideal) x0 x1 x2 (ix3 B n f) := by
  rw [val_main_v17_apply, val_main_cst_2_apply, Ideal.ofBits_def, Ideal.ofBits_zero_f32, zero_add]
  have e : ∀ k : Fin 8192, idx_main_v17 (ix2 B f) k = ix3 B k f := fun k =>
    funext fun a => Fin.ext (by match a with | ⟨0, _⟩ => rfl | ⟨1, _⟩ => rfl | ⟨2, _⟩ => rfl)
  simp only [e]

end Stages

/-! ## The reference is the pooling function -/

theorem ref_eq_G [Cert.ReferenceIdeal.Facts]
    (x0 : (⟨Cert.ReferenceIdeal.S32x8192x256, .f32⟩ : BufTy).Contents (Elt Ideal))
    (x1 : (⟨Cert.ReferenceIdeal.S256x1, .f32⟩ : BufTy).Contents (Elt Ideal))
    (x2 : (⟨Cert.ReferenceIdeal.S1, .f32⟩ : BufTy).Contents (Elt Ideal)) :
    Cert.ReferenceIdeal.Read.val_main_v17 (F := Ideal) x0 x1 x2 = Cert.PoolSpec.G x0 x1 x2 := by
  funext j
  obtain ⟨B, f, rfl⟩ : ∃ (B : Fin 32) (f : Fin 256), j = ix2 B f := ⟨j 0, j 1, eq_ix2 j⟩
  rw [Cert.PoolSpec.G_ix2, v17_at]
  simp only [v16_at, v11_at, v10_at]
  have hs : Cert.PoolSpec.score x0 x1 x2 B
      = fun k i => val_main_v3 (F := Ideal) x0 x1 x2 (ix3 B (Cert.PoolSpec.node k i) (0 : Fin 1)) := by
    funext k i
    rw [v3_at]
    rfl
  have hr : Cert.PoolSpec.rows x0 B = fun k i => (fun (n : Fin 8192) (f : Fin 256) => x0 (ix3 B n f)) (Cert.PoolSpec.node k i) := rfl
  unfold Cert.PoolSpec.pooledAt
  rw [hs, hr]
  exact (pooled_nodes (fun n => val_main_v3 (F := Ideal) x0 x1 x2 (ix3 B n (0 : Fin 1)))
    (fun (n : Fin 8192) (f : Fin 256) => x0 (ix3 B n f)) f).symm

end Cert.PoolRef

end
-- ==== Proof.PoolFinite.lean ====
/-
  Finiteness of the inputs, read back from the printed precondition: when the predicate
  all(|x| < +inf) & all(|w| < +inf) & all(|b| < +inf) is true at the ideal instance, where a float
  is an extended real, every entry of every input is a real number.
-/
import proofs.«168193_j54571854463410_2_alg».proof.Pre_finite_inputs
import proofs.«168193_j54571854463410_2_alg».proof.Proof.Gen.Pre_finite_inputs
import Idealize.ShloMosaic.PureOps.Ideal
import Idealize.ShloMosaic.Lib.ValueIdx
import Idealize.ShloMosaic.Lib.ReduceAll

namespace Cert.PoolFinite

open Idealize.ShloMosaic

/-- An extended real whose absolute value max a (-a) lies strictly below ⊤ is a real number:
    at ⊥ and at ⊤ the absolute value is ⊤. -/
theorem real_of_abs_lt_top (a : EReal) (h : max a (-a) < ⊤) : ∃ r : ℝ, a = (r : EReal) := by
  induction a using EReal.rec with
  | bot => simp at h
  | coe r => exact ⟨r, rfl⟩
  | top => simp at h

/-- The f32 pattern 0x7F800000 denotes ⊤. -/
theorem inf_pattern : Ideal.ofBits .f32 0x7F800000#32 = ⊤ := by simp [Ideal.ofBits, Ideal.ieee]

/-- The element test of the predicate: |a| < +inf holding says a is real. -/
theorem real_of_test (a : EReal)
    (h : Ideal.cmp .olt (max a (-a)) (Ideal.ofBits .f32 0x7F800000#32) = 1#1) : ∃ r : ℝ, a = (r : EReal) := by
  rw [inf_pattern] at h
  apply real_of_abs_lt_top
  by_contra hn
  simp [Ideal.cmp, hn] at h

/-- The scalar shape has one index. -/
instance scalarIdx_subsingleton : Subsingleton Cert.Pre_finite_inputs.S_.Idx := ⟨fun a b => funext fun d => d.elim0⟩

theorem finite_of_pre [Cert.Pre_finite_inputs.Facts]
    (x : FVec Ideal Cert.Pre_finite_inputs.S32x8192x256 .f32) (w : FVec Ideal Cert.Pre_finite_inputs.S256x1 .f32)
    (b : FVec Ideal Cert.Pre_finite_inputs.S1 .f32)
    (h : Cert.Pre_finite_inputs.fn (F := Ideal) x w b = fun _ => 1#1) :
    (∀ i, ∃ r : ℝ, x i = (r : EReal)) ∧ (∀ i, ∃ r : ℝ, w i = (r : EReal)) ∧ (∀ i, ∃ r : ℝ, b i = (r : EReal)) := by
  have h0 := congrFun h ValueIdx.ix0
  dsimp only [Cert.Pre_finite_inputs.fn] at h0
  obtain ⟨h12, hb⟩ := IntOp.andi_eq_one.1 h0
  obtain ⟨hx, hw⟩ := IntOp.andi_eq_one.1 h12
  refine ⟨fun i => ?_, fun i => ?_, fun i => ?_⟩
  · exact real_of_test (x i) (Host.reduce_andi_all _ _ _ _ _ hx i)
  · exact real_of_test (w i) (Host.reduce_andi_all _ _ _ _ _ hw i)
  · exact real_of_test (b i) (Host.reduce_andi_all _ _ _ _ _ hb i)

end Cert.PoolFinite
-- ==== Proof.lean ====
/-
  Attention pooling: a Pallas kernel against its jnp reference, equal on the extended reals.

  Inputs: node features `x : [32, 8192, 256]`, score weights `w : [256, 1]`, a score bias `b : [1]`, all finite. For each
  of the 32 graphs a node's score is its feature row against `w` plus `b`; the result row of the graph is the sum of
  its 8192 feature rows weighted by the softmax of the scores (`Cert.PoolSpec.G`).

  The reference computes exactly that: the scores, their maximum, the exponentials of the distances below it, their
  total, the quotients, the weighted sum (`Cert.PoolRef.ref_eq_G`, over the reference's generated run).

  The kernel makes one pass. Grid point `t` of 16 holds graphs `2t` and `2t + 1`; each is walked in eight chunks of 1024
  nodes carrying the running maximum `m`, the total `l` of `exp (score − m)` and the row sum `a` weighted the same way;
  a chunk raises `m` to `m'`, rescales `l` and `a` by `exp (m − m')` and adds its own terms; the stored row is `a / l`.
  Because `exp (m − m') · exp (s − m) = exp (s − m')` the triple after the last chunk is the maximum, the total and the
  weighted sum over all 8192 nodes, and because the total is a positive real the division moves inside the sum: the
  stored row is the softmax-weighted sum (`Cert.PoolSpec.online_eq_pooled`). Both steps need every score and feature to
  be a real number, which the precondition gives (`Cert.PoolFinite.finite_of_pre`). The sixteen output blocks tile the
  output array `[32, 1, 256]`, and the host's reshape to `[32, 256]` drops the unit axis
  (`Cert.KernelIdeal.Pool.run_value`).

  The frames: each kernel program runs to the end, faults nowhere and leaves its arguments unchanged
  (`Cert.Kernel.Pool.frame`, `Cert.KernelIdeal.Pool.frame`: the body's run at a symbolic point, each chunk loop by an
  invariant over a symbolic chunk), the reference by its generated run. The idealization rewrote nothing, so there is
  nothing to preserve.
-/
import proofs.«168193_j54571854463410_2_alg».proof.Defs
import proofs.«168193_j54571854463410_2_alg».proof.Proof.Gen.Kernel
import proofs.«168193_j54571854463410_2_alg».proof.Proof.Gen.KernelIdeal
import proofs.«168193_j54571854463410_2_alg».proof.Proof.Gen.ReferenceIdeal
import proofs.«168193_j54571854463410_2_alg».proof.Proof.Gen.Pre_finite_inputs
import proofs.«168193_j54571854463410_2_alg».proof.Proof.Gen.ReferenceIdeal.Run
import proofs.«168193_j54571854463410_2_alg».proof.Proof.Gen.ReferenceIdeal.Read
import proofs.«168193_j54571854463410_2_alg».proof.Proof.PoolLaunchBits
import proofs.«168193_j54571854463410_2_alg».proof.Proof.PoolFinalIdeal
import proofs.«168193_j54571854463410_2_alg».proof.Proof.PoolRef
import proofs.«168193_j54571854463410_2_alg».proof.Proof.PoolFinite
import Idealize.ShloMosaic.Adequacy
import Idealize.ShloMosaic.Init

noncomputable section

namespace Cert.Proof

open Idealize.ShloMosaic Idealize.ShloMosaic.TcCoe Idealize.SL.Sem

/-- The kernel as printed runs, faults nowhere, keeps its arguments. -/
theorem frame_kernel : Cert.frame_Kernel := fun m ρ _ => Cert.Kernel.Pool.frame m ρ

/-- So does its idealization. -/
theorem frame_kernelIdeal : Cert.frame_KernelIdeal := fun m ρ _ => Cert.KernelIdeal.Pool.frame m ρ

/-- And the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on finite arguments both programs end at the pooling function of the arguments. -/
theorem algebraic : Cert.algebraic_KernelIdeal_ReferenceIdeal := by
  intro m ρ m' ρ' hpre hagree
  refine ⟨fun c => Cert.PoolSpec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Pool.run_value m ρ (fun c => Cert.PoolFinite.finite_of_pre _ _ _ (hpre c)), ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v17_eq, Cert.PoolRef.ref_eq_G, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
